-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x256 : Shape := ⟨4, ![16, 256, 256, 256]⟩
abbrev S256x64 : Shape := ⟨2, ![256, 64]⟩
abbrev S64x256 : Shape := ⟨2, ![64, 256]⟩
abbrev S256 : Shape := ⟨1, ![256]⟩
abbrev S_ : Shape := ⟨0, ![]⟩

class Facts : Prop where
  bcast_S_S16x256x256x256 : S_.BroadcastsInDim S16x256x256x256 (![] : Fin 0 → Fin S16x256x256x256.rank)
  reducesTo_S16x256x256x256_S_d0_1_2_3 : S16x256x256x256.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x256x256x256 .f32) (main_arg1 : FVec F S256x64 .f32) (main_arg2 : FVec F S64x256 .f32) (main_arg3 : FVec F S256 .f32) : IVec S_ 1 :=
  let main_v0 : FVec F S16x256x256x256 .f32 := Host.absf main_arg0
  let main_cst : FVec F S_ .f32 := constant S_ .f32 0x7F800000#32
  let main_v1 : FVec F S16x256x256x256 .f32 := broadcastInDim S16x256x256x256 ![] bcast_S_S16x256x256x256 main_cst
  let main_v2 : IVec S16x256x256x256 1 := cmpf .olt main_v0 main_v1
  let main_c : IVec S_ 1 := constantI S_ 1 1#1
  let main_v3 : IVec S_ 1 := (fun x v => Host.reduce IntOp.andi x v reducesTo_S16x256x256x256_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x256x256x256 : Shape := ⟨4, ![16, 256, 256, 256]⟩
abbrev S256x64 : Shape := ⟨2, ![256, 64]⟩
abbrev S64x256 : Shape := ⟨2, ![64, 256]⟩
abbrev S256 : Shape := ⟨1, ![256]⟩
abbrev S16x1x1x256 : Shape := ⟨4, ![16, 1, 1, 256]⟩
abbrev S1x32x256x256 : Shape := ⟨4, ![1, 32, 256, 256]⟩
abbrev S1x1x1x256 : Shape := ⟨4, ![1, 1, 1, 256]⟩
abbrev S1x256x256 : Shape := ⟨3, ![1, 256, 256]⟩
abbrev S1x256 : Shape := ⟨2, ![1, 256]⟩
abbrev S16x256 : Shape := ⟨2, ![16, 256]⟩
abbrev S_ : Shape := ⟨0, ![]⟩
abbrev S16x64 : Shape := ⟨2, ![16, 64]⟩

abbrev nBuf : Space → Nat
  | .hbm => 37
  | .vmem => 11
  | .smem => 0
  | _ => 0

abbrev bufTy : (tb : Table) → Fin (tcTables nBuf tb) → BufTy
  | .hbm, ⟨0, _⟩ => ⟨S16x256x256x256, .f32⟩
  | .hbm, ⟨1, _⟩ => ⟨S256x64, .f32⟩
  | .hbm, ⟨2, _⟩ => ⟨S64x256, .f32⟩
  | .hbm, ⟨3, _⟩ => ⟨S256, .f32⟩
  | .hbm, ⟨4, _⟩ => ⟨S16x1x1x256, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x64, .i1⟩
  | .hbm, ⟨13, _⟩ => ⟨S_, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S_, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x1x1x256, .f32⟩
  | .hbm, ⟨36, _⟩ => ⟨S16x256x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S1x1x1x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1x32x256x256, .f32⟩
  | .local _ .vmem, ⟨6, _⟩ => ⟨S1x32x256x256, .f32⟩
  | .local _ .vmem, ⟨7, _⟩ => ⟨S1x1x1x256, .f32⟩
  | .local _ .vmem, ⟨8, _⟩ => ⟨S1x1x1x256, .f32⟩
  | .local _ .vmem, ⟨9, _⟩ => ⟨S1x32x256x256, .f32⟩
  | .local _ .vmem, ⟨10, _⟩ => ⟨S1x32x256x256, .f32⟩
  | _, _ => ⟨S16x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_13 : BitVec 32 := 0#32
  let v14 : BitVec 1 := Scalar.cmpi .ne v13 c0_i32_13
  v14

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S1x1x1x256_S1x1x1x256 : S1x1x1x256.ShapeCasts S1x1x1x256
  inb_S1x32x256x256_S1x32x256x256_0_0_0_0 : ∀ a, (![0, 0, 0, 0] : Fin 4 → Nat) a + S1x32x256x256.size a ≤ S1x32x256x256.size a
  h_S1x32x256x256 : 0 < S1x32x256x256.numel
  reduces_S1x32x256x256_S1x256x256 : S1x32x256x256.Reduces [1] S1x256x256
  reduces_S1x256x256_S1x256 : S1x256x256.Reduces [1] S1x256
  shapeCasts_S1x256_S1x1x1x256 : S1x256.ShapeCasts S1x1x1x256
  shapeCasts_S16x1x1x256_S16x256 : S16x1x1x256.ShapeCasts S16x256
  bcast_S_S16x256 : S_.BroadcastsInDim S16x256 (![] : Fin 0 → Fin S16x256.rank)
  bcast_S_S16x64 : S_.BroadcastsInDim S16x64 (![] : Fin 0 → Fin S16x64.rank)
  bcast_S_S256 : S_.BroadcastsInDim S256 (![] : Fin 0 → Fin S256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  shapeCasts_S16x256_S16x1x1x256 : S16x256.ShapeCasts S16x1x1x256
  broadcasts_S1x1x1x256_S1x32x256x256 : S1x1x1x256.Broadcasts S1x32x256x256
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S16x256x256x256.size a
  hwx0_0 : ∀ i : grid0.Coords, EltTy.bits .f32 = 32 ∨ (Rect.block (s := S16x256x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x256.size a ≤ S16x1x1x256.size a
  hwx0_1 : ∀ i : grid0.Coords, EltTy.bits .f32 = 32 ∨ (Rect.block (s := S16x1x1x256) S1x1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256x256.size a ≤ S16x256x256x256.size a
  hwx1_0 : ∀ i : grid1.Coords, EltTy.bits .f32 = 32 ∨ (Rect.block (s := S16x256x256x256) S1x32x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x256.size a ≤ S16x1x1x256.size a
  hwx1_1 : ∀ i : grid1.Coords, EltTy.bits .f32 = 32 ∨ (Rect.block (s := S16x1x1x256) S1x1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x256x256.size a ≤ S16x256x256x256.size a
  hwx1_2 : ∀ i : grid1.Coords, EltTy.bits .f32 = 32 ∨ (Rect.block (s := S16x256x256x256) S1x32x256x256.size (cc1_transform_2 i) (hinb1_2 i)).WholeWords (EltTy.packing .f32)

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x32x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x32x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x256x256 : Shape := ⟨4, ![16, 256, 256, 256]⟩
abbrev S256x64 : Shape := ⟨2, ![256, 64]⟩
abbrev S64x256 : Shape := ⟨2, ![64, 256]⟩
abbrev S256 : Shape := ⟨1, ![256]⟩
abbrev S_ : Shape := ⟨0, ![]⟩
abbrev S16x256 : Shape := ⟨2, ![16, 256]⟩
abbrev S16x64 : Shape := ⟨2, ![16, 64]⟩
abbrev S1x256 : Shape := ⟨2, ![1, 256]⟩
abbrev S16x1x1x256 : Shape := ⟨4, ![16, 1, 1, 256]⟩

abbrev nBuf : Space → Nat
  | .hbm => 38
  | .vmem => 0
  | .smem => 0
  | _ => 0

abbrev bufTy : (tb : Table) → Fin (tcTables nBuf tb) → BufTy
  | .hbm, ⟨0, _⟩ => ⟨S16x256x256x256, .f32⟩
  | .hbm, ⟨1, _⟩ => ⟨S256x64, .f32⟩
  | .hbm, ⟨2, _⟩ => ⟨S64x256, .f32⟩
  | .hbm, ⟨3, _⟩ => ⟨S256, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x64, .i1⟩
  | .hbm, ⟨13, _⟩ => ⟨S_, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S_, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x1x1x256, .f32⟩
  | .hbm, ⟨36, _⟩ => ⟨S16x256x256x256, .f32⟩
  | .hbm, ⟨37, _⟩ => ⟨S16x256x256x256, .f32⟩
  | _, _ => ⟨S16x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S16x256x256x256_S16x256_d1_2 : S16x256x256x256.ReducesTo [1, 2] S16x256
  h_S_ : 0 < S_.numel
  bcast_S_S16x256 : S_.BroadcastsInDim S16x256 (![] : Fin 0 → Fin S16x256.rank)
  bcast_S_S16x64 : S_.BroadcastsInDim S16x64 (![] : Fin 0 → Fin S16x64.rank)
  bcast_S_S256 : S_.BroadcastsInDim S256 (![] : Fin 0 → Fin S256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x1x1x256_0_3 : S16x256.BroadcastsInDim S16x1x1x256 (![0, 3] : Fin 2 → Fin S16x1x1x256.rank)
  bcast_S16x1x1x256_S16x256x256x256_0_1_2_3 : S16x1x1x256.BroadcastsInDim S16x256x256x256 (![0, 1, 2, 3] : Fin 4 → Fin S16x256x256x256.rank)
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

class Facts : Prop extends Facts₀ where

variable [Facts]
-- ==== Proof.K.ReduceBody.lean ====
import proofs.«159028_j13735305412823_2_alg».proof.Proof.Gen.Kernel.Launch
import proofs.«159028_j13735305412823_2_alg».proof.Proof.Gen.Kernel.Skeleton
import proofs.«159028_j13735305412823_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The pooling kernel's body, case by case

The body keeps a running row of 256 partial sums in its scratch. On the first row-block of a batch entry it
zeroes the scratch before adding the block's sums; on the last it also copies the scratch into the output's
buffer. A grid point is in exactly one of three cases (the grid has eight row-blocks per batch entry, so the first
is never the last), and in each the body is a function of what it loads. -/

/-- The row-block is the first of its batch entry (the body's reset condition, from the grid coordinates). -/
abbrev firstRow (i : grid0.Coords) : Prop := (Scalar.cmpi .ne (Scalar.extui (Scalar.cmpi .eq (BitVec.ofNat 32 (i 1).val) 0#32)) 0#32) = 1#1
/-- The row-block is the last of its batch entry (the body's copy-out condition). -/
abbrev lastRow (i : grid0.Coords) : Prop := k0_cond2 i = 1#1

/-- The four zero offsets of a whole-block access, as a constant function. -/
theorem zero4 : (![0, 0, 0, 0] : Fin 4 → Nat) = fun _ => 0 := by
  funext a; fin_cases a <;> rfl

/-- ONE whole-block store into a memref leaves its payload there. -/
theorem read_store_whole {S : Shape} {off : Fin S.rank → Nat} (hz : off = fun _ => 0) (inb : ∀ a, off a + S.size a ≤ S.size a)
    (v : View sig .tc .vmem S .f32) (f : v.ty.Contents (Elt F)) (w : S.Idx → Elt F .f32) :
    View.read (Elt F) v (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- A whole-block store, LAST, into a memref leaves its payload there whatever was stored before. -/
theorem read_store_cons_whole {S : Shape} {off : Fin S.rank → Nat} (hz : off = fun _ => 0) (inb : ∀ a, off a + S.size a ≤ S.size a)
    (v : View sig .tc .vmem S .f32) (f : v.ty.Contents (Elt F)) (w : S.Idx → Elt F .f32) (L : List (View.Piece (Elt F) S .f32)) :
    View.read (Elt F) v (v.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

set_option maxHeartbeats 1000000 in
/-- A middle row-block: the scratch gains the block's sums; the output's buffer is left as found. -/
theorem reduce_mid (c : Dev nD) (E : Set ℕ) (i : grid0.Coords) (hf : ¬ firstRow i) (hl : ¬ lastRow i)
    (arg2 : Memref sig .tc .vmem S1x32x256x256 .f32) (harg2 : arg2.IsWhole)
    (arg3 : Memref sig .tc .vmem S1x1x1x256 .f32) (harg3 : arg3.IsWhole)
    (arg4 : Memref sig .tc .vmem S1x1x1x256 .f32) (harg4 : arg4.IsWhole)
    (x : Vec F S1x32x256x256 .f32) (y acc : Vec F S1x1x1x256 .f32) (K : PUnit → sProp 𝕄) :
    iprop(owns (c : Thread nD τ) arg2 fullShare x ∗ owns (c : Thread nD τ) arg3 fullShare y ∗ owns (c : Thread nD τ) arg4 fullShare acc
        ∗ (iprop(owns (c : Thread nD τ) arg2 fullShare x ∗ owns (c : Thread nD τ) arg3 fullShare y
            ∗ owns (c : Thread nD τ) arg4 fullShare (k0_pay2 x acc)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f2, %hf2, H2⟩, ⟨%f3, %hf3, H3⟩, ⟨%f4, %hf4, H4⟩, Hk⟩
  subst hf2 hf3 hf4
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  rw [read_store_whole zero4, View.readAt_eq_ld, View.readAt_eq_ld, View.ld_unit_zero zero4, View.ld_unit_zero zero4]

set_option maxHeartbeats 1000000 in
/-- The first row-block: the scratch is zeroed, then gains the block's sums. -/
theorem reduce_first (c : Dev nD) (E : Set ℕ) (i : grid0.Coords) (hf : firstRow i) (hl : ¬ lastRow i)
    (arg2 : Memref sig .tc .vmem S1x32x256x256 .f32) (harg2 : arg2.IsWhole)
    (arg3 : Memref sig .tc .vmem S1x1x1x256 .f32) (harg3 : arg3.IsWhole)
    (arg4 : Memref sig .tc .vmem S1x1x1x256 .f32) (harg4 : arg4.IsWhole)
    (x : Vec F S1x32x256x256 .f32) (y acc : Vec F S1x1x1x256 .f32) (K : PUnit → sProp 𝕄) :
    iprop(owns (c : Thread nD τ) arg2 fullShare x ∗ owns (c : Thread nD τ) arg3 fullShare y ∗ owns (c : Thread nD τ) arg4 fullShare acc
        ∗ (iprop(owns (c : Thread nD τ) arg2 fullShare x ∗ owns (c : Thread nD τ) arg3 fullShare y
            ∗ owns (c : Thread nD τ) arg4 fullShare (k0_pay2 x (k0_pay1 (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f2, %hf2, H2⟩, ⟨%f3, %hf3, H3⟩, ⟨%f4, %hf4, H4⟩, Hk⟩
  subst hf2 hf3 hf4
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [read_store_cons_whole zero4, View.readAt_eq_ld, View.ld_unit_zero zero4, View.readCov_unit_zero _ zero4]

set_option maxHeartbeats 1000000 in
/-- The last row-block: the scratch gains the block's sums and is copied into the output's buffer. -/
theorem reduce_last (c : Dev nD) (E : Set ℕ) (i : grid0.Coords) (hf : ¬ firstRow i) (hl : lastRow i)
    (arg2 : Memref sig .tc .vmem S1x32x256x256 .f32) (harg2 : arg2.IsWhole)
    (arg3 : Memref sig .tc .vmem S1x1x1x256 .f32) (harg3 : arg3.IsWhole)
    (arg4 : Memref sig .tc .vmem S1x1x1x256 .f32) (harg4 : arg4.IsWhole)
    (x : Vec F S1x32x256x256 .f32) (y acc : Vec F S1x1x1x256 .f32) (K : PUnit → sProp 𝕄) :
    iprop(owns (c : Thread nD τ) arg2 fullShare x ∗ owns (c : Thread nD τ) arg3 fullShare y ∗ owns (c : Thread nD τ) arg4 fullShare acc
        ∗ (iprop(owns (c : Thread nD τ) arg2 fullShare x ∗ owns (c : Thread nD τ) arg3 fullShare (k0_pay2 x acc)
            ∗ owns (c : Thread nD τ) arg4 fullShare (k0_pay2 x acc)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f2, %hf2, H2⟩, ⟨%f3, %hf3, H3⟩, ⟨%f4, %hf4, H4⟩, Hk⟩
  subst hf2 hf3 hf4
  sl_exec (disch := first | exact hf | exact hl)
  sl_step
  iapply Hk
  isplitl [H2]
  · iexists f2; isplitr; · ipureintro; rfl
    iexact H2
  isplitl [H3]
  · iexists _; isplitr
    swap; · iexact H3
    ipureintro
    sl_unfold_words
    rw [read_store_whole zero4, View.readCov_unit_zero _ zero4, View.readAt_eq_ld, View.readAt_eq_ld,
      View.ld_unit_zero zero4, View.ld_unit_zero zero4]
  iexists _; isplitr
  swap; · iexact H4
  ipureintro
  sl_unfold_words
  rw [read_store_whole zero4, View.readAt_eq_ld, View.readAt_eq_ld, View.ld_unit_zero zero4, View.ld_unit_zero zero4]

end Cert.Kernel.Hand

end
-- ==== Proof.K.ReduceData.lean ====
import proofs.«159028_j13735305412823_2_alg».proof.Proof.K.ReduceBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The pooling region: what each point leaves, and the body obligation

The region runs 128 points, eight row-blocks for each of the 16 batch entries. The proof data names what the scratch
holds after each point — the sum of the row-blocks of the current batch entry seen so far — and hands that same row
to the output's buffer at the entry's last row-block, the only point that writes the output back. Everything is
stated at a parameter `V`, the buffers' contents when the region is entered. -/

section Region

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The schedule, decided over the grid -/

theorem first_iff : ∀ t : Fin cfg0.N, firstRow (grid0.coords t) ↔ t.val % 8 = 0 :=
  (by decide +kernel : ∀ t : Fin grid0.N, firstRow (grid0.coords t) ↔ t.val % 8 = 0)
theorem last_iff : ∀ t : Fin cfg0.N, lastRow (grid0.coords t) ↔ t.val % 8 = 7 :=
  (by decide +kernel : ∀ t : Fin grid0.N, lastRow (grid0.coords t) ↔ t.val % 8 = 7)
/-- The input window is never idle. -/
theorem live_in : ∀ t : Fin cfg0.N, cfg0.idle 0 (grid0.coords t) = false := by decide +kernel
/-- Away from a last row-block the output window is idle and is not written back. -/
theorem idle_out : ∀ t : Fin cfg0.N, ¬ lastRow (grid0.coords t) → cfg0.idle 1 (grid0.coords t) = true := by decide +kernel
theorem keep_out : ∀ t : Fin cfg0.N, ¬ lastRow (grid0.coords t) → (cfg0.win 1).flush t = false := by decide +kernel
/-- At a last row-block it is live. -/
theorem live_out : ∀ t : Fin cfg0.N, lastRow (grid0.coords t) → cfg0.idle 1 (grid0.coords t) = false := by decide +kernel

/-! ## The running sums -/

/-- What the scratch holds after the body at position `n`: at a first row-block the block's sums over zero, elsewhere
    the block's sums over what the point before left. -/
def accAt (c : Dev nD) : (n : ℕ) → n < cfg0.N → Vec F S1x1x1x256 .f32
  | 0, hn => k0_pay2 (blk0 V c 0 ⟨0, hn⟩) (k0_pay1 (F := F))
  | n + 1, hn =>
    if (n + 1) % 8 = 0 then k0_pay2 (blk0 V c 0 ⟨n + 1, hn⟩) (k0_pay1 (F := F))
    else k0_pay2 (blk0 V c 0 ⟨n + 1, hn⟩) (accAt c n (Nat.lt_of_succ_lt hn))

theorem accAt_first (c : Dev nD) (t : Fin cfg0.N) (h : t.val % 8 = 0) :
    accAt V c t.val t.isLt = k0_pay2 (blk0 V c 0 t) (k0_pay1 (F := F)) := by
  obtain ⟨n, hn⟩ := t
  cases n with
  | zero => rfl
  | succ n => exact if_pos h

theorem accAt_next (c : Dev nD) (t : Fin cfg0.N) (h : ¬ t.val % 8 = 0) :
    accAt V c t.val t.isLt
      = k0_pay2 (blk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref. -/
abbrev scratch : Memref sig .tc .vmem S1x1x1x256 .f32 := Memref.whole cc0_scratch0

/-- The scoped buffers the region never touches (the other region's staging buffers), each at some contents. -/
def idleBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region is the scratch at anything, the untouched buffers and the generator register, -/
theorem entryInv_open (c : Dev nD) :
    (Pipeline.ΦA spec0 c : sProp 𝕄)
      ⊢ iprop((∃ d, owns (c : Thread nD τ) scratch fullShare d) ∗ idleBufs (F := F) c ∗ (∃ r, prngReg c r)) := by
  unfold Pipeline.ΦA idleBufs; rw [scopedRest0_eq]; simp only [scratch, owns_whole]
  iintro ⟨⟨HS, Hr⟩, Hg⟩
  isplitl [HS]; · iexact HS
  isplitl [Hr]; · iexact Hr
  iexact Hg

/-- and those three make it again. -/
theorem entryInv_close (c : Dev nD) :
    iprop((∃ d, owns (c : Thread nD τ) scratch fullShare d) ∗ idleBufs (F := F) c ∗ (∃ r, prngReg c r))
      ⊢ (Pipeline.ΦA spec0 c : sProp 𝕄) := by
  unfold Pipeline.ΦA idleBufs; rw [scopedRest0_eq]; simp only [scratch, owns_whole]
  iintro ⟨HS, Hr, Hg⟩
  isplitl [HS Hr]
  · isplitl [HS]; · iexact HS
    iexact Hr
  iexact Hg

/-- Before position `n`: at the region's entry the launch's invariant; afterwards the scratch at the running sums
    the point before left. -/
def inv0 (c : Dev nD) : (n : ℕ) → n ≤ cfg0.N → sProp 𝕄
  | 0, _ => Pipeline.ΦA spec0 c
  | n + 1, hn => iprop(owns (c : Thread nD τ) scratch fullShare (accAt V c n hn) ∗ idleBufs (F := F) c ∗ (∃ r, prngReg c r))

theorem inv0_pos (c : Dev nD) (n : ℕ) (h : n ≤ cfg0.N) (hz : n ≠ 0) :
    inv0 V c n h = iprop(owns (c : Thread nD τ) scratch fullShare (accAt V c (n - 1) (by omega)) ∗ idleBufs (F := F) c ∗ (∃ r, prngReg c r)) := by
  cases n with
  | zero => exact absurd rfl hz
  | succ n => rfl

/-- At any position the invariant holds the scratch at SOME contents. -/
theorem inv0_any (c : Dev nD) (n : ℕ) (h : n ≤ cfg0.N) :
    inv0 V c n h ⊢ iprop((∃ d, owns (c : Thread nD τ) scratch fullShare d) ∗ idleBufs (F := F) c ∗ (∃ r, prngReg c r)) := by
  cases n with
  | zero => exact entryInv_open c
  | succ n =>
    show iprop(owns (c : Thread nD τ) scratch fullShare (accAt V c n h) ∗ idleBufs (F := F) c ∗ (∃ r, prngReg c r)) ⊢ _
    iintro ⟨HS, Hr⟩
    isplitl [HS]; · iexists _; iexact HS
    iexact Hr

/-! ## The proof data -/

/-- The pooling pipeline's proof data on core `c`: the arrays as found; after the body the input's buffer at its
    block and the output's at the running sums (consulted only where the block is written back); the invariant above;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => accAt V c t.val t.isLt
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_after_in (c : Dev nD) (t : Fin cfg0.N) : (dat0 V c).after 0 t = blk0 V c 0 t := by dsimp only [dat0]
theorem dat0_after_out (c : Dev nD) (t : Fin cfg0.N) : (dat0 V c).after 1 t = accAt V c t.val t.isLt := by dsimp only [dat0]

/-- The input's buffer holds its block at every point (it is fetched at every point, and the body leaves it as found). -/
theorem dat0_before_in (c : Dev nD) (t : Fin cfg0.N) (d) : (dat0 V c).before 0 t d = blk0 V c 0 t :=
  ((dat0 V c).before_in_eq_fetched 0 rfl (fun _ => rfl) (fun _ _ _ => rfl)
      (fun t => by rw [dat0_after_in]; unfold Dat.blockOf blk0; rw [dat0_A]; try rfl) t d).trans
    (by unfold Dat.fetched Dat.blockOf blk0; rw [dat0_A]; try rfl)

theorem dat0_inv_start (c : Dev nD) (t : Fin cfg0.N) :
    (dat0 V c).Φ t.castSucc = inv0 V c t.val (Nat.le_of_lt t.isLt) := by
  dsimp only [dat0]; simp only [Fin.coe_castSucc]

/-! ## The body obligation -/

set_option maxHeartbeats 4000000 in
/-- The body at any point: the input's memref holds its block; the point is in one of the three cases by its position
    in its batch entry; the invariant hands the body the scratch (at the running sums so far, or at anything at a first
    row-block) and takes it back at this point's sums; the output's buffer is handed back as found except at a last
    row-block, where it receives the sums. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t)) := by
  unfold bodyAt0
  simp only [dat0_before_in]
  rw [show (dat0 V c).owesAt () t.succ = (dat0 V c).owesAt () t.castSucc from rfl,
    show (dat0 V c).Φ t.succ = iprop(owns (c : Thread nD τ) scratch fullShare (accAt V c t.val t.isLt) ∗ idleBufs (F := F) c ∗ (∃ r, prngReg c r)) from rfl,
    show (dat0 V c).leavesExact 0 t = owns (c : Thread nD τ) (st0_0 t) fullShare ((dat0 V c).after 0 t) from by
      unfold Dat.leavesExact; rw [live_in t],
    dat0_after_in, dat0_inv_start]
  have hN : t.val < 128 := lt_of_lt_of_eq t.isLt (show cfg0.N = 128 from N_0)
  by_cases hl : lastRow (grid0.coords t)
  · -- a last row-block: never a first one; the running sums go to the scratch and to the output's buffer
    have h7 : t.val % 8 = 7 := (last_iff t).mp hl
    have hf : ¬ firstRow (grid0.coords t) := fun h => by have := (first_iff t).mp h; omega
    have hz : t.val ≠ 0 := by omega
    rw [show (dat0 V c).leavesExact 1 t = owns (c : Thread nD τ) (st0_1 t) fullShare ((dat0 V c).after 1 t) from by
      unfold Dat.leavesExact; rw [live_out t hl], dat0_after_out, accAt_next V c t (by omega), inv0_pos V c _ _ hz]
    iintro ⟨⟨HS, Hr, Hg⟩, Ho, ⟨%d0, H0⟩, ⟨%d1, H1⟩⟩
    iapply (reduce_last c Set.univ (grid0.coords t) hf hl _ _ _ _ _ _ (blk0 V c 0 t) _ _ _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexact H1
  · rw [Dat.leavesExact_idle (dat0 V c) 1 t (idle_out t hl) (keep_out t hl)]
    by_cases hf : firstRow (grid0.coords t)
    · -- a first row-block: whatever the scratch held is zeroed
      rw [accAt_first V c t ((first_iff t).mp hf)]
      iintro ⟨HΦ, Ho, ⟨%d0, H0⟩, ⟨%d1, H1⟩⟩
      ihave HΦ' := (inv0_any V c _ _) $$ HΦ
      icases HΦ' with ⟨⟨%a, HS⟩, Hr, Hg⟩
      iapply (reduce_first c Set.univ (grid0.coords t) hf hl _ _ _ _ _ _ (blk0 V c 0 t) _ a _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1
    · -- a middle row-block
      have h0 : ¬ t.val % 8 = 0 := fun h => hf ((first_iff t).mpr h)
      have hz : t.val ≠ 0 := fun h => h0 (by rw [h])
      rw [accAt_next V c t h0, inv0_pos V c _ _ hz]
      iintro ⟨⟨HS, Hr, Hg⟩, Ho, ⟨%d0, H0⟩, ⟨%d1, H1⟩⟩
      iapply (reduce_mid c Set.univ (grid0.coords t) hf hl _ _ _ _ _ _ (blk0 V c 0 t) _ _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem inv0_in (c : Dev nD) : Pipeline.ΦA spec0 c ⊢ (dat0 V c).Φ 0 := Entails.of_eq rfl

/-- After the last point the invariant gives the launch's back: the scratch's contents are forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl]
  exact (inv0_any V c _ _).trans (entryInv_close c)

end Region

end Cert.Kernel.Hand

end
-- ==== Proof.K.ScaleBody.lean ====
import proofs.«159028_j13735305412823_2_alg».proof.Proof.K.ReduceBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The scaling kernel's body

It loads the gate row and the block of `x`, and stores their product, the gate row repeated along the block's rows
and columns; it also loads the output's buffer first, a value nothing reads. -/

set_option maxHeartbeats 1000000 in
/-- The body on whole staging memrefs: the inputs' are left as found, the output's holds `x · gate`. -/
theorem scale_body (c : Dev nD) (E : Set ℕ) (i : grid1.Coords)
    (arg2 : Memref sig .tc .vmem S1x32x256x256 .f32) (harg2 : arg2.IsWhole)
    (arg3 : Memref sig .tc .vmem S1x1x1x256 .f32) (harg3 : arg3.IsWhole)
    (arg4 : Memref sig .tc .vmem S1x32x256x256 .f32) (harg4 : arg4.IsWhole)
    (x : Vec F S1x32x256x256 .f32) (g : Vec F S1x1x1x256 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g
            ∗ owns (c : Thread nD τ) arg4 fullShare (k1_pay1 g x)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f2, %hf2, H2⟩, ⟨%f3, %hf3, H3⟩, ⟨%d4, %f4, -, H4⟩, Hk⟩
  subst hf2 hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  rw [read_store_whole zero4, View.readAt_eq_ld, View.readAt_eq_ld, View.ld_unit_zero zero4, View.ld_unit_zero zero4]

end Cert.Kernel.Hand

end
-- ==== Proof.K.ScaleData.lean ====
import proofs.«159028_j13735305412823_2_alg».proof.Proof.K.ScaleBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The scaling region: what each point leaves, and the body obligation

Each of the 128 points multiplies one block of 32 rows of `x` by the gate row of its batch entry and writes the
product back; nothing is carried from point to point. Stated at a parameter `V`, the buffers' contents when the
region is entered. -/

section Region

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scaling pipeline's proof data on core `c`: the arrays as found; after the body each input's buffer at its
    block and the output's at the product of the two blocks; the launch's invariant, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 1 t) (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_x (c : Dev nD) (t : Fin cfg1.N) : (dat1 V c).after 0 t = blk1 V c 0 t := by dsimp only [dat1]
theorem dat1_after_gate (c : Dev nD) (t : Fin cfg1.N) : (dat1 V c).after 1 t = blk1 V c 1 t := by dsimp only [dat1]
theorem dat1_after_out (c : Dev nD) (t : Fin cfg1.N) :
    (dat1 V c).after 2 t = k1_pay1 (blk1 V c 1 t) (blk1 V c 0 t) := by dsimp only [dat1]

/-- Each input's buffer holds its block at every point, fetched there or not: the gate row is fetched once per batch
    entry and its block index does not move in between. -/
theorem dat1_before_x (c : Dev nD) (t : Fin cfg1.N) (d) : (dat1 V c).before 0 t d = blk1 V c 0 t :=
  ((dat1 V c).before_in_eq_fetched 0 rfl (fun _ => rfl) (fun _ _ _ => rfl)
      (fun t => by rw [dat1_after_x]; unfold Dat.blockOf blk1; rw [dat1_A]; try rfl) t d).trans
    (by unfold Dat.fetched Dat.blockOf blk1; rw [dat1_A]; try rfl)
theorem dat1_before_gate (c : Dev nD) (t : Fin cfg1.N) (d) : (dat1 V c).before 1 t d = blk1 V c 1 t :=
  ((dat1 V c).before_in_eq_fetched 1 rfl (fun _ => rfl) (fun _ _ _ => rfl)
      (fun t => by rw [dat1_after_gate]; unfold Dat.blockOf blk1; rw [dat1_A]; try rfl) t d).trans
    (by unfold Dat.fetched Dat.blockOf blk1; rw [dat1_A]; try rfl)

set_option maxHeartbeats 1000000 in
/-- The body at any point: the inputs' memrefs hold their blocks, the output's receives the product; the invariant
    and the core's `owes` pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [dat1_before_x, dat1_before_gate]
  rw [show (dat1 V c).Φ t.succ = (dat1 V c).Φ t.castSucc from rfl,
    show (dat1 V c).owesAt () t.succ = (dat1 V c).owesAt () t.castSucc from rfl,
    dat1_after_x, dat1_after_gate, dat1_after_out]
  iintro ⟨HΦ, Ho, ⟨%d0, H0⟩, ⟨%d1, H1⟩, ⟨%d2, H2⟩⟩
  iapply (scale_body c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Run.lean ====
import proofs.«159028_j13735305412823_2_alg».proof.Proof.K.ReduceData
import proofs.«159028_j13735305412823_2_alg».proof.Proof.K.ScaleData
import proofs.«159028_j13735305412823_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program's run

@main is: the pooling region; five stretches of host operations (the mean, the two small products with their
activations, the gate); the scaling region. The buffers' contents at each boundary are a fold from the launch memory:
a region leaves its arrays at what its write-backs built and every other buffer as it was; a host stretch leaves what
its operations compute. Each region is entered holding every unscoped buffer at its boundary's contents, and the run
ends with every unscoped buffer read back at the last boundary's contents — from which both the frame (the arguments
are never written) and the result (the last region's output array) are read. -/

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- The same at the TensorCore's references: what the pooling region finds. -/
abbrev E0 : (c : Dev nD) → (b : Ref sig .tc) → Buf (Elt F) ((c : Thread nD τ).loc b) := fun c b => W0 m c b
/-- After the pooling region: its arrays at what the pipeline leaves, every other buffer as launched. -/
def W1 (c : Dev nD) : Valuation τ sig (Elt F) :=
  Pipeline.withArrays spec0 c (W0 m c) fun w => (dat0 (E0 m) c).arrAt w cfg0.N
/-- After each host stretch in turn. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- The same at the TensorCore's references: what the scaling region finds. -/
abbrev E1 : (c : Dev nD) → (b : Ref sig .tc) → Buf (Elt F) ((c : Thread nD τ).loc b) := fun c b => W6 m c b
/-- After the scaling region. -/
def W7 (c : Dev nD) : Valuation τ sig (Elt F) :=
  Pipeline.withArrays spec1 c (W6 m c) fun w => (dat1 (E1 m) c).arrAt w cfg1.N

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
theorem W7_other (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- A buffer no host stretch writes holds after the five stretches what it held before them. -/
theorem W6_kept (c : Dev nD) (r : Ref sig .tc) (h1 : r ∉ hostOps1_W) (h2 : r ∉ hostOps1_1_W) (h3 : r ∉ hostOps1_2_W)
    (h4 : r ∉ hostOps1_3_W) (h5 : r ∉ hostOps1_4_W) :
    W6 m c (Proc.devRef .tc r) = W1 m c (Proc.devRef .tc r) :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  StableHlo.after_of_writes_sub hostOps1 _ hostOps1_writes h1

/-! ## The proof data family and the thread state -/

abbrev noTables : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c

abbrev noVariants : Variants := Variants.none
abbrev noPairs : GSem nD τ sig → Finset Unit := fun _ => ∅
abbrev noLevels : GSem nD τ sig → Unit → ℕ := fun _ _ => 0

/-- What rides beside the buffers through every segment: the generator register at some state, and the core owing
    nothing. -/
abbrev beside (c : Dev nD) : sProp 𝕄 := iprop((∃ r, prngReg c r) ∗ ∃ W, owes (c : Thread nD τ) (0 : CellTallies nD τ sig Unit) W)

/-- A host stretch as a segment over every unscoped buffer, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- After the pooling region its arrays hold what the pipeline leaves, and every other buffer what it held. -/
theorem W1_arrays (c : Dev nD) (w : Fin cfg0.W) : (dat0 (E0 m) c).arrAt w cfg0.N = (fun b : Ref sig .tc => W1 m c b) (Pipeline.arrRef spec0 w) :=
  (W1_arr m c w).symm
theorem W1_rest (c : Dev nD) : ∀ b, b ∉ Finset.univ.image (Pipeline.arrRef spec0) → (fun b : Ref sig .tc => W1 m c b) b = E0 m c b :=
  fun b hb => W1_other m c b fun w e => hb (Finset.mem_image.mpr ⟨w, Finset.mem_univ _, e⟩)
theorem W7_arrays (c : Dev nD) (w : Fin cfg1.W) : (dat1 (E1 m) c).arrAt w cfg1.N = (fun b : Ref sig .tc => W7 m c b) (Pipeline.arrRef spec1 w) :=
  (W7_arr m c w).symm
theorem W7_rest (c : Dev nD) : ∀ b, b ∉ Finset.univ.image (Pipeline.arrRef spec1) → (fun b : Ref sig .tc => W7 m c b) b = E1 m c b :=
  fun b hb => W7_other m c b fun w e => hb (Finset.mem_image.mpr ⟨w, Finset.mem_univ _, e⟩)

/-! ## The regions as segments -/

set_option backward.isDefEq.respectTransparency.types false in
/-- The pooling region: entered from every unscoped buffer at the launch contents, left at `W1`. Its two arrays are
    split out of the unscoped buffers and put back at what the pipeline leaves; the generator register goes into the
    invariant and comes back; nothing is owed; the kernel has no semaphore of its own. -/
def poolSeg : Pipeline.RegionSeg (pcfgs (F := F)) noTables (pdats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevels 0 fun _ _ => rfl
  pre c := iprop(StableHlo.held (c : Thread nD τ) (Pipeline.ucRefs τ sig) (W0 m c) ∗ beside c)
  post c := iprop(StableHlo.held (c : Thread nD τ) (Pipeline.ucRefs τ sig) (W1 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E0 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    refine BIBase.Entails.trans ?_ (inv0_in (E0 m) c)
    unfold Pipeline.ΦA
    iintro ⟨Hgen, -, Hsc⟩
    isplitl [Hsc]; · iexact Hsc
    iexact Hgen
  hout c := by
    rw [Pipeline.ownSems0_none]
    refine BIBase.Entails.trans (inv0_out (E0 m) c) ?_
    unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E0 m c) (fun b : Ref sig .tc => W1 m c b) ((pdats m 0 c).arrAt · cfg0.N) (W1_arrays m c) (W1_rest m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- The scaling region: entered from every unscoped buffer at `W6`, left at `W7`; otherwise as the pooling region,
    with the launch's invariant kept throughout. -/
def scaleSeg : Pipeline.RegionSeg (pcfgs (F := F)) noTables (pdats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevels 1 fun _ _ => rfl
  pre c := iprop(StableHlo.held (c : Thread nD τ) (Pipeline.ucRefs τ sig) (W6 m c) ∗ beside c)
  post c := iprop((StableHlo.held (c : Thread nD τ) (Pipeline.ucRefs τ sig) (W7 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E1 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    rw [show (pdats m 1 c).Φ 0 = Pipeline.ΦA spec1 c from rfl]; unfold Pipeline.ΦA
    iintro ⟨Hgen, -, Hsc⟩
    isplitl [Hsc]; · iexact Hsc
    iexact Hgen
  hout c := by
    rw [Pipeline.ownSems0_none, show (pdats m 1 c).Φ (Fin.last _) = Pipeline.ΦA spec1 c from rfl]; unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E1 m c) (fun b : Ref sig .tc => W7 m c b) ((pdats m 1 c).arrAt · cfg1.N) (W7_arrays m c) (W7_rest m c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%W, -, Howes⟩; iexists W; iexact Howes

/-! ## @main as segments, and the launch -/

/-- @main's seven segments in order. -/
abbrev mainSegs : List (Pipeline.Seg (pcfgs (F := F)) noTables (pdats m) () defs₀ noVariants noPairs noLevels) :=
  [ .region (poolSeg m),
    .host (hostSeg hostOps1 hostOps1_sub hostOps1_fresh (W1 m)),
    .host (hostSeg hostOps1_1 hostOps1_1_sub hostOps1_1_fresh (W2 m)),
    .host (hostSeg hostOps1_2 hostOps1_2_sub hostOps1_2_fresh (W3 m)),
    .host (hostSeg hostOps1_3 hostOps1_3_sub hostOps1_3_fresh (W4 m)),
    .host (hostSeg hostOps1_4 hostOps1_4_sub hostOps1_4_fresh (W5 m)),
    .region (scaleSeg m) ]

/-- @main is the run of those segments. -/
theorem main_is_segs (c : Dev nD) : main (F := F) c = Pipeline.Seg.run (mainSegs m) := by
  rw [main_chain c, Pipeline.Seg.run_eq_chain]; rfl

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) noTables (pdats m) () cellOf_inj emb₁ defs₀ noVariants noPairs noLevels m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The frame -/

/-- `x` is an input of both regions and written by nothing: it ends as launched. -/
theorem arg0_final (c : Dev nD) : W7 m c (Proc.devRef .tc main_arg0) = m ((c : Thread nD τ).loc main_arg0) :=
  (W7_arr m c 0).trans <| ((dat1 (E1 m) c).arrAt_in 0 rfl _).trans <| (dat1_A (E1 m) c 0).trans <|
    (W6_kept m c main_arg0 (by decide) (by decide) (by decide) (by decide) (by decide)).trans <|
      (W1_arr m c 0).trans <| ((dat0 (E0 m) c).arrAt_in 0 rfl _).trans (dat0_A (E0 m) c 0)
/-- The three small weights are no region's array and written by no host operation. -/
theorem arg1_final (c : Dev nD) : W7 m c (Proc.devRef .tc main_arg1) = m ((c : Thread nD τ).loc main_arg1) :=
  (W7_other m c main_arg1 (by decide)).trans <|
    (W6_kept m c main_arg1 (by decide) (by decide) (by decide) (by decide) (by decide)).trans (W1_other m c main_arg1 (by decide))
theorem arg2_final (c : Dev nD) : W7 m c (Proc.devRef .tc main_arg2) = m ((c : Thread nD τ).loc main_arg2) :=
  (W7_other m c main_arg2 (by decide)).trans <|
    (W6_kept m c main_arg2 (by decide) (by decide) (by decide) (by decide) (by decide)).trans (W1_other m c main_arg2 (by decide))
theorem arg3_final (c : Dev nD) : W7 m c (Proc.devRef .tc main_arg3) = m ((c : Thread nD τ).loc main_arg3) :=
  (W7_other m c main_arg3 (by decide)).trans <|
    (W6_kept m c main_arg3 (by decide) (by decide) (by decide) (by decide) (by decide)).trans (W1_other m c main_arg3 (by decide))

/-- THE FRAME, with the result named: every weakly fair execution terminates, nothing faulting; the output array ends
    at the last boundary's contents and every argument as launched. -/
theorem run_named : θ_run defs (onTc (τ := τ) (main (F := F))) ⟨m, fun _ => 0, ρ⟩ (fun r => ∀ c : Dev nD,
      r.2.mem ((c.tc : Thread nD τ).loc main_v24) = W7 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_unscoped main_v24 (by decide)),
      (h c _ (mem_unscoped main_arg0 (by decide))).trans (arg0_final m c),
      (h c _ (mem_unscoped main_arg1 (by decide))).trans (arg1_final m c),
      (h c _ (mem_unscoped main_arg2 (by decide))).trans (arg2_final m c),
      (h c _ (mem_unscoped main_arg3 (by decide))).trans (arg3_final m c)⟩) (run_all m ρ)

end Cert.Kernel.Hand

end
-- ==== Proof.KI.ReduceBody.lean ====
import proofs.«159028_j13735305412823_2_alg».proof.Proof.Gen.KernelIdeal.Launch
import proofs.«159028_j13735305412823_2_alg».proof.Proof.Gen.KernelIdeal.Skeleton
import proofs.«159028_j13735305412823_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pooling kernel's body, case by case

The body keeps a running row of 256 partial sums in its scratch. On the first row-block of a batch entry it
zeroes the scratch before adding the block's sums; on the last it also copies the scratch into the output's
buffer. A grid point is in exactly one of three cases (the grid has eight row-blocks per batch entry, so the first
is never the last), and in each the body is a function of what it loads. -/

/-- The row-block is the first of its batch entry (the body's reset condition, from the grid coordinates). -/
abbrev firstRow (i : grid0.Coords) : Prop := (Scalar.cmpi .ne (Scalar.extui (Scalar.cmpi .eq (BitVec.ofNat 32 (i 1).val) 0#32)) 0#32) = 1#1
/-- The row-block is the last of its batch entry (the body's copy-out condition). -/
abbrev lastRow (i : grid0.Coords) : Prop := k0_cond2 i = 1#1

/-- The four zero offsets of a whole-block access, as a constant function. -/
theorem zero4 : (![0, 0, 0, 0] : Fin 4 → Nat) = fun _ => 0 := by
  funext a; fin_cases a <;> rfl

/-- ONE whole-block store into a memref leaves its payload there. -/
theorem read_store_whole {S : Shape} {off : Fin S.rank → Nat} (hz : off = fun _ => 0) (inb : ∀ a, off a + S.size a ≤ S.size a)
    (v : View sig .tc .vmem S .f32) (f : v.ty.Contents (Elt F)) (w : S.Idx → Elt F .f32) :
    View.read (Elt F) v (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- A whole-block store, LAST, into a memref leaves its payload there whatever was stored before. -/
theorem read_store_cons_whole {S : Shape} {off : Fin S.rank → Nat} (hz : off = fun _ => 0) (inb : ∀ a, off a + S.size a ≤ S.size a)
    (v : View sig .tc .vmem S .f32) (f : v.ty.Contents (Elt F)) (w : S.Idx → Elt F .f32) (L : List (View.Piece (Elt F) S .f32)) :
    View.read (Elt F) v (v.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

set_option maxHeartbeats 1000000 in
/-- A middle row-block: the scratch gains the block's sums; the output's buffer is left as found. -/
theorem reduce_mid (c : Dev nD) (E : Set ℕ) (i : grid0.Coords) (hf : ¬ firstRow i) (hl : ¬ lastRow i)
    (arg2 : Memref sig .tc .vmem S1x32x256x256 .f32) (harg2 : arg2.IsWhole)
    (arg3 : Memref sig .tc .vmem S1x1x1x256 .f32) (harg3 : arg3.IsWhole)
    (arg4 : Memref sig .tc .vmem S1x1x1x256 .f32) (harg4 : arg4.IsWhole)
    (x : Vec F S1x32x256x256 .f32) (y acc : Vec F S1x1x1x256 .f32) (K : PUnit → sProp 𝕄) :
    iprop(owns (c : Thread nD τ) arg2 fullShare x ∗ owns (c : Thread nD τ) arg3 fullShare y ∗ owns (c : Thread nD τ) arg4 fullShare acc
        ∗ (iprop(owns (c : Thread nD τ) arg2 fullShare x ∗ owns (c : Thread nD τ) arg3 fullShare y
            ∗ owns (c : Thread nD τ) arg4 fullShare (k0_pay2 x acc)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f2, %hf2, H2⟩, ⟨%f3, %hf3, H3⟩, ⟨%f4, %hf4, H4⟩, Hk⟩
  subst hf2 hf3 hf4
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  rw [read_store_whole zero4, View.readAt_eq_ld, View.readAt_eq_ld, View.ld_unit_zero zero4, View.ld_unit_zero zero4]

set_option maxHeartbeats 1000000 in
/-- The first row-block: the scratch is zeroed, then gains the block's sums. -/
theorem reduce_first (c : Dev nD) (E : Set ℕ) (i : grid0.Coords) (hf : firstRow i) (hl : ¬ lastRow i)
    (arg2 : Memref sig .tc .vmem S1x32x256x256 .f32) (harg2 : arg2.IsWhole)
    (arg3 : Memref sig .tc .vmem S1x1x1x256 .f32) (harg3 : arg3.IsWhole)
    (arg4 : Memref sig .tc .vmem S1x1x1x256 .f32) (harg4 : arg4.IsWhole)
    (x : Vec F S1x32x256x256 .f32) (y acc : Vec F S1x1x1x256 .f32) (K : PUnit → sProp 𝕄) :
    iprop(owns (c : Thread nD τ) arg2 fullShare x ∗ owns (c : Thread nD τ) arg3 fullShare y ∗ owns (c : Thread nD τ) arg4 fullShare acc
        ∗ (iprop(owns (c : Thread nD τ) arg2 fullShare x ∗ owns (c : Thread nD τ) arg3 fullShare y
            ∗ owns (c : Thread nD τ) arg4 fullShare (k0_pay2 x (k0_pay1 (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f2, %hf2, H2⟩, ⟨%f3, %hf3, H3⟩, ⟨%f4, %hf4, H4⟩, Hk⟩
  subst hf2 hf3 hf4
  sl_exec (disch := first | exact hf | exact hl)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [read_store_cons_whole zero4, View.readAt_eq_ld, View.ld_unit_zero zero4, View.readCov_unit_zero _ zero4]

set_option maxHeartbeats 1000000 in
/-- The last row-block: the scratch gains the block's sums and is copied into the output's buffer. -/
theorem reduce_last (c : Dev nD) (E : Set ℕ) (i : grid0.Coords) (hf : ¬ firstRow i) (hl : lastRow i)
    (arg2 : Memref sig .tc .vmem S1x32x256x256 .f32) (harg2 : arg2.IsWhole)
    (arg3 : Memref sig .tc .vmem S1x1x1x256 .f32) (harg3 : arg3.IsWhole)
    (arg4 : Memref sig .tc .vmem S1x1x1x256 .f32) (harg4 : arg4.IsWhole)
    (x : Vec F S1x32x256x256 .f32) (y acc : Vec F S1x1x1x256 .f32) (K : PUnit → sProp 𝕄) :
    iprop(owns (c : Thread nD τ) arg2 fullShare x ∗ owns (c : Thread nD τ) arg3 fullShare y ∗ owns (c : Thread nD τ) arg4 fullShare acc
        ∗ (iprop(owns (c : Thread nD τ) arg2 fullShare x ∗ owns (c : Thread nD τ) arg3 fullShare (k0_pay2 x acc)
            ∗ owns (c : Thread nD τ) arg4 fullShare (k0_pay2 x acc)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f2, %hf2, H2⟩, ⟨%f3, %hf3, H3⟩, ⟨%f4, %hf4, H4⟩, Hk⟩
  subst hf2 hf3 hf4
  sl_exec (disch := first | exact hf | exact hl)
  sl_step
  iapply Hk
  isplitl [H2]
  · iexists f2; isplitr; · ipureintro; rfl
    iexact H2
  isplitl [H3]
  · iexists _; isplitr
    swap; · iexact H3
    ipureintro
    sl_unfold_words
    rw [read_store_whole zero4, View.readCov_unit_zero _ zero4, View.readAt_eq_ld, View.readAt_eq_ld,
      View.ld_unit_zero zero4, View.ld_unit_zero zero4]
  iexists _; isplitr
  swap; · iexact H4
  ipureintro
  sl_unfold_words
  rw [read_store_whole zero4, View.readAt_eq_ld, View.readAt_eq_ld, View.ld_unit_zero zero4, View.ld_unit_zero zero4]

end Cert.KernelIdeal.Hand

end
-- ==== Proof.KI.ReduceData.lean ====
import proofs.«159028_j13735305412823_2_alg».proof.Proof.KI.ReduceBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pooling region: what each point leaves, and the body obligation

The region runs 128 points, eight row-blocks for each of the 16 batch entries. The proof data names what the scratch
holds after each point — the sum of the row-blocks of the current batch entry seen so far — and hands that same row
to the output's buffer at the entry's last row-block, the only point that writes the output back. Everything is
stated at a parameter `V`, the buffers' contents when the region is entered. -/

section Region

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The schedule, decided over the grid -/

theorem first_iff : ∀ t : Fin cfg0.N, firstRow (grid0.coords t) ↔ t.val % 8 = 0 :=
  (by decide +kernel : ∀ t : Fin grid0.N, firstRow (grid0.coords t) ↔ t.val % 8 = 0)
theorem last_iff : ∀ t : Fin cfg0.N, lastRow (grid0.coords t) ↔ t.val % 8 = 7 :=
  (by decide +kernel : ∀ t : Fin grid0.N, lastRow (grid0.coords t) ↔ t.val % 8 = 7)
/-- The input window is never idle. -/
theorem live_in : ∀ t : Fin cfg0.N, cfg0.idle 0 (grid0.coords t) = false := by decide +kernel
/-- Away from a last row-block the output window is idle and is not written back. -/
theorem idle_out : ∀ t : Fin cfg0.N, ¬ lastRow (grid0.coords t) → cfg0.idle 1 (grid0.coords t) = true := by decide +kernel
theorem keep_out : ∀ t : Fin cfg0.N, ¬ lastRow (grid0.coords t) → (cfg0.win 1).flush t = false := by decide +kernel
/-- At a last row-block it is live. -/
theorem live_out : ∀ t : Fin cfg0.N, lastRow (grid0.coords t) → cfg0.idle 1 (grid0.coords t) = false := by decide +kernel

/-! ## The running sums -/

/-- What the scratch holds after the body at position `n`: at a first row-block the block's sums over zero, elsewhere
    the block's sums over what the point before left. -/
def accAt (c : Dev nD) : (n : ℕ) → n < cfg0.N → Vec F S1x1x1x256 .f32
  | 0, hn => k0_pay2 (blk0 V c 0 ⟨0, hn⟩) (k0_pay1 (F := F))
  | n + 1, hn =>
    if (n + 1) % 8 = 0 then k0_pay2 (blk0 V c 0 ⟨n + 1, hn⟩) (k0_pay1 (F := F))
    else k0_pay2 (blk0 V c 0 ⟨n + 1, hn⟩) (accAt c n (Nat.lt_of_succ_lt hn))

theorem accAt_first (c : Dev nD) (t : Fin cfg0.N) (h : t.val % 8 = 0) :
    accAt V c t.val t.isLt = k0_pay2 (blk0 V c 0 t) (k0_pay1 (F := F)) := by
  obtain ⟨n, hn⟩ := t
  cases n with
  | zero => rfl
  | succ n => exact if_pos h

theorem accAt_next (c : Dev nD) (t : Fin cfg0.N) (h : ¬ t.val % 8 = 0) :
    accAt V c t.val t.isLt
      = k0_pay2 (blk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref. -/
abbrev scratch : Memref sig .tc .vmem S1x1x1x256 .f32 := Memref.whole cc0_scratch0

/-- The scoped buffers the region never touches (the other region's staging buffers), each at some contents. -/
def idleBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region is the scratch at anything, the untouched buffers and the generator register, -/
theorem entryInv_open (c : Dev nD) :
    (Pipeline.ΦA spec0 c : sProp 𝕄)
      ⊢ iprop((∃ d, owns (c : Thread nD τ) scratch fullShare d) ∗ idleBufs (F := F) c ∗ (∃ r, prngReg c r)) := by
  unfold Pipeline.ΦA idleBufs; rw [scopedRest0_eq]; simp only [scratch, owns_whole]
  iintro ⟨⟨HS, Hr⟩, Hg⟩
  isplitl [HS]; · iexact HS
  isplitl [Hr]; · iexact Hr
  iexact Hg

/-- and those three make it again. -/
theorem entryInv_close (c : Dev nD) :
    iprop((∃ d, owns (c : Thread nD τ) scratch fullShare d) ∗ idleBufs (F := F) c ∗ (∃ r, prngReg c r))
      ⊢ (Pipeline.ΦA spec0 c : sProp 𝕄) := by
  unfold Pipeline.ΦA idleBufs; rw [scopedRest0_eq]; simp only [scratch, owns_whole]
  iintro ⟨HS, Hr, Hg⟩
  isplitl [HS Hr]
  · isplitl [HS]; · iexact HS
    iexact Hr
  iexact Hg

/-- Before position `n`: at the region's entry the launch's invariant; afterwards the scratch at the running sums
    the point before left. -/
def inv0 (c : Dev nD) : (n : ℕ) → n ≤ cfg0.N → sProp 𝕄
  | 0, _ => Pipeline.ΦA spec0 c
  | n + 1, hn => iprop(owns (c : Thread nD τ) scratch fullShare (accAt V c n hn) ∗ idleBufs (F := F) c ∗ (∃ r, prngReg c r))

theorem inv0_pos (c : Dev nD) (n : ℕ) (h : n ≤ cfg0.N) (hz : n ≠ 0) :
    inv0 V c n h = iprop(owns (c : Thread nD τ) scratch fullShare (accAt V c (n - 1) (by omega)) ∗ idleBufs (F := F) c ∗ (∃ r, prngReg c r)) := by
  cases n with
  | zero => exact absurd rfl hz
  | succ n => rfl

/-- At any position the invariant holds the scratch at SOME contents. -/
theorem inv0_any (c : Dev nD) (n : ℕ) (h : n ≤ cfg0.N) :
    inv0 V c n h ⊢ iprop((∃ d, owns (c : Thread nD τ) scratch fullShare d) ∗ idleBufs (F := F) c ∗ (∃ r, prngReg c r)) := by
  cases n with
  | zero => exact entryInv_open c
  | succ n =>
    show iprop(owns (c : Thread nD τ) scratch fullShare (accAt V c n h) ∗ idleBufs (F := F) c ∗ (∃ r, prngReg c r)) ⊢ _
    iintro ⟨HS, Hr⟩
    isplitl [HS]; · iexists _; iexact HS
    iexact Hr

/-! ## The proof data -/

/-- The pooling pipeline's proof data on core `c`: the arrays as found; after the body the input's buffer at its
    block and the output's at the running sums (consulted only where the block is written back); the invariant above;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => accAt V c t.val t.isLt
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_after_in (c : Dev nD) (t : Fin cfg0.N) : (dat0 V c).after 0 t = blk0 V c 0 t := by dsimp only [dat0]
theorem dat0_after_out (c : Dev nD) (t : Fin cfg0.N) : (dat0 V c).after 1 t = accAt V c t.val t.isLt := by dsimp only [dat0]

/-- The input's buffer holds its block at every point (it is fetched at every point, and the body leaves it as found). -/
theorem dat0_before_in (c : Dev nD) (t : Fin cfg0.N) (d) : (dat0 V c).before 0 t d = blk0 V c 0 t :=
  ((dat0 V c).before_in_eq_fetched 0 rfl (fun _ => rfl) (fun _ _ _ => rfl)
      (fun t => by rw [dat0_after_in]; unfold Dat.blockOf blk0; rw [dat0_A]; try rfl) t d).trans
    (by unfold Dat.fetched Dat.blockOf blk0; rw [dat0_A]; try rfl)

theorem dat0_inv_start (c : Dev nD) (t : Fin cfg0.N) :
    (dat0 V c).Φ t.castSucc = inv0 V c t.val (Nat.le_of_lt t.isLt) := by
  dsimp only [dat0]; simp only [Fin.coe_castSucc]

/-! ## The body obligation -/

set_option maxHeartbeats 4000000 in
/-- The body at any point: the input's memref holds its block; the point is in one of the three cases by its position
    in its batch entry; the invariant hands the body the scratch (at the running sums so far, or at anything at a first
    row-block) and takes it back at this point's sums; the output's buffer is handed back as found except at a last
    row-block, where it receives the sums. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t)) := by
  unfold bodyAt0
  simp only [dat0_before_in]
  rw [show (dat0 V c).owesAt () t.succ = (dat0 V c).owesAt () t.castSucc from rfl,
    show (dat0 V c).Φ t.succ = iprop(owns (c : Thread nD τ) scratch fullShare (accAt V c t.val t.isLt) ∗ idleBufs (F := F) c ∗ (∃ r, prngReg c r)) from rfl,
    show (dat0 V c).leavesExact 0 t = owns (c : Thread nD τ) (st0_0 t) fullShare ((dat0 V c).after 0 t) from by
      unfold Dat.leavesExact; rw [live_in t],
    dat0_after_in, dat0_inv_start]
  have hN : t.val < 128 := lt_of_lt_of_eq t.isLt (show cfg0.N = 128 from N_0)
  by_cases hl : lastRow (grid0.coords t)
  · -- a last row-block: never a first one; the running sums go to the scratch and to the output's buffer
    have h7 : t.val % 8 = 7 := (last_iff t).mp hl
    have hf : ¬ firstRow (grid0.coords t) := fun h => by have := (first_iff t).mp h; omega
    have hz : t.val ≠ 0 := by omega
    rw [show (dat0 V c).leavesExact 1 t = owns (c : Thread nD τ) (st0_1 t) fullShare ((dat0 V c).after 1 t) from by
      unfold Dat.leavesExact; rw [live_out t hl], dat0_after_out, accAt_next V c t (by omega), inv0_pos V c _ _ hz]
    iintro ⟨⟨HS, Hr, Hg⟩, Ho, ⟨%d0, H0⟩, ⟨%d1, H1⟩⟩
    iapply (reduce_last c Set.univ (grid0.coords t) hf hl _ _ _ _ _ _ (blk0 V c 0 t) _ _ _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexact H1
  · rw [Dat.leavesExact_idle (dat0 V c) 1 t (idle_out t hl) (keep_out t hl)]
    by_cases hf : firstRow (grid0.coords t)
    · -- a first row-block: whatever the scratch held is zeroed
      rw [accAt_first V c t ((first_iff t).mp hf)]
      iintro ⟨HΦ, Ho, ⟨%d0, H0⟩, ⟨%d1, H1⟩⟩
      ihave HΦ' := (inv0_any V c _ _) $$ HΦ
      icases HΦ' with ⟨⟨%a, HS⟩, Hr, Hg⟩
      iapply (reduce_first c Set.univ (grid0.coords t) hf hl _ _ _ _ _ _ (blk0 V c 0 t) _ a _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1
    · -- a middle row-block
      have h0 : ¬ t.val % 8 = 0 := fun h => hf ((first_iff t).mpr h)
      have hz : t.val ≠ 0 := fun h => h0 (by rw [h])
      rw [accAt_next V c t h0, inv0_pos V c _ _ hz]
      iintro ⟨⟨HS, Hr, Hg⟩, Ho, ⟨%d0, H0⟩, ⟨%d1, H1⟩⟩
      iapply (reduce_mid c Set.univ (grid0.coords t) hf hl _ _ _ _ _ _ (blk0 V c 0 t) _ _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem inv0_in (c : Dev nD) : Pipeline.ΦA spec0 c ⊢ (dat0 V c).Φ 0 := Entails.of_eq rfl

/-- After the last point the invariant gives the launch's back: the scratch's contents are forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl]
  exact (inv0_any V c _ _).trans (entryInv_close c)

end Region

end Cert.KernelIdeal.Hand

end
-- ==== Proof.KI.ScaleBody.lean ====
import proofs.«159028_j13735305412823_2_alg».proof.Proof.KI.ReduceBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The scaling kernel's body

It loads the gate row and the block of `x`, and stores their product, the gate row repeated along the block's rows
and columns; it also loads the output's buffer first, a value nothing reads. -/

set_option maxHeartbeats 1000000 in
/-- The body on whole staging memrefs: the inputs' are left as found, the output's holds `x · gate`. -/
theorem scale_body (c : Dev nD) (E : Set ℕ) (i : grid1.Coords)
    (arg2 : Memref sig .tc .vmem S1x32x256x256 .f32) (harg2 : arg2.IsWhole)
    (arg3 : Memref sig .tc .vmem S1x1x1x256 .f32) (harg3 : arg3.IsWhole)
    (arg4 : Memref sig .tc .vmem S1x32x256x256 .f32) (harg4 : arg4.IsWhole)
    (x : Vec F S1x32x256x256 .f32) (g : Vec F S1x1x1x256 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g
            ∗ owns (c : Thread nD τ) arg4 fullShare (k1_pay1 g x)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f2, %hf2, H2⟩, ⟨%f3, %hf3, H3⟩, ⟨%d4, %f4, -, H4⟩, Hk⟩
  subst hf2 hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  rw [read_store_whole zero4, View.readAt_eq_ld, View.readAt_eq_ld, View.ld_unit_zero zero4, View.ld_unit_zero zero4]

end Cert.KernelIdeal.Hand

end
-- ==== Proof.KI.ScaleData.lean ====
import proofs.«159028_j13735305412823_2_alg».proof.Proof.KI.ScaleBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The scaling region: what each point leaves, and the body obligation

Each of the 128 points multiplies one block of 32 rows of `x` by the gate row of its batch entry and writes the
product back; nothing is carried from point to point. Stated at a parameter `V`, the buffers' contents when the
region is entered. -/

section Region

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scaling pipeline's proof data on core `c`: the arrays as found; after the body each input's buffer at its
    block and the output's at the product of the two blocks; the launch's invariant, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 1 t) (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_x (c : Dev nD) (t : Fin cfg1.N) : (dat1 V c).after 0 t = blk1 V c 0 t := by dsimp only [dat1]
theorem dat1_after_gate (c : Dev nD) (t : Fin cfg1.N) : (dat1 V c).after 1 t = blk1 V c 1 t := by dsimp only [dat1]
theorem dat1_after_out (c : Dev nD) (t : Fin cfg1.N) :
    (dat1 V c).after 2 t = k1_pay1 (blk1 V c 1 t) (blk1 V c 0 t) := by dsimp only [dat1]

/-- Each input's buffer holds its block at every point, fetched there or not: the gate row is fetched once per batch
    entry and its block index does not move in between. -/
theorem dat1_before_x (c : Dev nD) (t : Fin cfg1.N) (d) : (dat1 V c).before 0 t d = blk1 V c 0 t :=
  ((dat1 V c).before_in_eq_fetched 0 rfl (fun _ => rfl) (fun _ _ _ => rfl)
      (fun t => by rw [dat1_after_x]; unfold Dat.blockOf blk1; rw [dat1_A]; try rfl) t d).trans
    (by unfold Dat.fetched Dat.blockOf blk1; rw [dat1_A]; try rfl)
theorem dat1_before_gate (c : Dev nD) (t : Fin cfg1.N) (d) : (dat1 V c).before 1 t d = blk1 V c 1 t :=
  ((dat1 V c).before_in_eq_fetched 1 rfl (fun _ => rfl) (fun _ _ _ => rfl)
      (fun t => by rw [dat1_after_gate]; unfold Dat.blockOf blk1; rw [dat1_A]; try rfl) t d).trans
    (by unfold Dat.fetched Dat.blockOf blk1; rw [dat1_A]; try rfl)

set_option maxHeartbeats 1000000 in
/-- The body at any point: the inputs' memrefs hold their blocks, the output's receives the product; the invariant
    and the core's `owes` pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [dat1_before_x, dat1_before_gate]
  rw [show (dat1 V c).Φ t.succ = (dat1 V c).Φ t.castSucc from rfl,
    show (dat1 V c).owesAt () t.succ = (dat1 V c).owesAt () t.castSucc from rfl,
    dat1_after_x, dat1_after_gate, dat1_after_out]
  iintro ⟨HΦ, Ho, ⟨%d0, H0⟩, ⟨%d1, H1⟩, ⟨%d2, H2⟩⟩
  iapply (scale_body c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Run.lean ====
import proofs.«159028_j13735305412823_2_alg».proof.Proof.KI.ReduceData
import proofs.«159028_j13735305412823_2_alg».proof.Proof.KI.ScaleData
import proofs.«159028_j13735305412823_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole program's run

@main is: the pooling region; five stretches of host operations (the mean, the two small products with their
activations, the gate); the scaling region. The buffers' contents at each boundary are a fold from the launch memory:
a region leaves its arrays at what its write-backs built and every other buffer as it was; a host stretch leaves what
its operations compute. Each region is entered holding every unscoped buffer at its boundary's contents, and the run
ends with every unscoped buffer read back at the last boundary's contents — from which both the frame (the arguments
are never written) and the result (the last region's output array) are read. -/

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- The same at the TensorCore's references: what the pooling region finds. -/
abbrev E0 : (c : Dev nD) → (b : Ref sig .tc) → Buf (Elt F) ((c : Thread nD τ).loc b) := fun c b => W0 m c b
/-- After the pooling region: its arrays at what the pipeline leaves, every other buffer as launched. -/
def W1 (c : Dev nD) : Valuation τ sig (Elt F) :=
  Pipeline.withArrays spec0 c (W0 m c) fun w => (dat0 (E0 m) c).arrAt w cfg0.N
/-- After each host stretch in turn. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- The same at the TensorCore's references: what the scaling region finds. -/
abbrev E1 : (c : Dev nD) → (b : Ref sig .tc) → Buf (Elt F) ((c : Thread nD τ).loc b) := fun c b => W6 m c b
/-- After the scaling region. -/
def W7 (c : Dev nD) : Valuation τ sig (Elt F) :=
  Pipeline.withArrays spec1 c (W6 m c) fun w => (dat1 (E1 m) c).arrAt w cfg1.N

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
theorem W7_other (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- A buffer no host stretch writes holds after the five stretches what it held before them. -/
theorem W6_kept (c : Dev nD) (r : Ref sig .tc) (h1 : r ∉ hostOps1_W) (h2 : r ∉ hostOps1_1_W) (h3 : r ∉ hostOps1_2_W)
    (h4 : r ∉ hostOps1_3_W) (h5 : r ∉ hostOps1_4_W) :
    W6 m c (Proc.devRef .tc r) = W1 m c (Proc.devRef .tc r) :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  StableHlo.after_of_writes_sub hostOps1 _ hostOps1_writes h1

/-! ## The proof data family and the thread state -/

abbrev noTables : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c

abbrev noVariants : Variants := Variants.none
abbrev noPairs : GSem nD τ sig → Finset Unit := fun _ => ∅
abbrev noLevels : GSem nD τ sig → Unit → ℕ := fun _ _ => 0

/-- What rides beside the buffers through every segment: the generator register at some state, and the core owing
    nothing. -/
abbrev beside (c : Dev nD) : sProp 𝕄 := iprop((∃ r, prngReg c r) ∗ ∃ W, owes (c : Thread nD τ) (0 : CellTallies nD τ sig Unit) W)

/-- A host stretch as a segment over every unscoped buffer, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- After the pooling region its arrays hold what the pipeline leaves, and every other buffer what it held. -/
theorem W1_arrays (c : Dev nD) (w : Fin cfg0.W) : (dat0 (E0 m) c).arrAt w cfg0.N = (fun b : Ref sig .tc => W1 m c b) (Pipeline.arrRef spec0 w) :=
  (W1_arr m c w).symm
theorem W1_rest (c : Dev nD) : ∀ b, b ∉ Finset.univ.image (Pipeline.arrRef spec0) → (fun b : Ref sig .tc => W1 m c b) b = E0 m c b :=
  fun b hb => W1_other m c b fun w e => hb (Finset.mem_image.mpr ⟨w, Finset.mem_univ _, e⟩)
theorem W7_arrays (c : Dev nD) (w : Fin cfg1.W) : (dat1 (E1 m) c).arrAt w cfg1.N = (fun b : Ref sig .tc => W7 m c b) (Pipeline.arrRef spec1 w) :=
  (W7_arr m c w).symm
theorem W7_rest (c : Dev nD) : ∀ b, b ∉ Finset.univ.image (Pipeline.arrRef spec1) → (fun b : Ref sig .tc => W7 m c b) b = E1 m c b :=
  fun b hb => W7_other m c b fun w e => hb (Finset.mem_image.mpr ⟨w, Finset.mem_univ _, e⟩)

/-! ## The regions as segments -/

set_option backward.isDefEq.respectTransparency.types false in
/-- The pooling region: entered from every unscoped buffer at the launch contents, left at `W1`. Its two arrays are
    split out of the unscoped buffers and put back at what the pipeline leaves; the generator register goes into the
    invariant and comes back; nothing is owed; the kernel has no semaphore of its own. -/
def poolSeg : Pipeline.RegionSeg (pcfgs (F := F)) noTables (pdats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevels 0 fun _ _ => rfl
  pre c := iprop(StableHlo.held (c : Thread nD τ) (Pipeline.ucRefs τ sig) (W0 m c) ∗ beside c)
  post c := iprop(StableHlo.held (c : Thread nD τ) (Pipeline.ucRefs τ sig) (W1 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E0 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    refine BIBase.Entails.trans ?_ (inv0_in (E0 m) c)
    unfold Pipeline.ΦA
    iintro ⟨Hgen, -, Hsc⟩
    isplitl [Hsc]; · iexact Hsc
    iexact Hgen
  hout c := by
    rw [Pipeline.ownSems0_none]
    refine BIBase.Entails.trans (inv0_out (E0 m) c) ?_
    unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E0 m c) (fun b : Ref sig .tc => W1 m c b) ((pdats m 0 c).arrAt · cfg0.N) (W1_arrays m c) (W1_rest m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- The scaling region: entered from every unscoped buffer at `W6`, left at `W7`; otherwise as the pooling region,
    with the launch's invariant kept throughout. -/
def scaleSeg : Pipeline.RegionSeg (pcfgs (F := F)) noTables (pdats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevels 1 fun _ _ => rfl
  pre c := iprop(StableHlo.held (c : Thread nD τ) (Pipeline.ucRefs τ sig) (W6 m c) ∗ beside c)
  post c := iprop((StableHlo.held (c : Thread nD τ) (Pipeline.ucRefs τ sig) (W7 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E1 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    rw [show (pdats m 1 c).Φ 0 = Pipeline.ΦA spec1 c from rfl]; unfold Pipeline.ΦA
    iintro ⟨Hgen, -, Hsc⟩
    isplitl [Hsc]; · iexact Hsc
    iexact Hgen
  hout c := by
    rw [Pipeline.ownSems0_none, show (pdats m 1 c).Φ (Fin.last _) = Pipeline.ΦA spec1 c from rfl]; unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E1 m c) (fun b : Ref sig .tc => W7 m c b) ((pdats m 1 c).arrAt · cfg1.N) (W7_arrays m c) (W7_rest m c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%W, -, Howes⟩; iexists W; iexact Howes

/-! ## @main as segments, and the launch -/

/-- @main's seven segments in order. -/
abbrev mainSegs : List (Pipeline.Seg (pcfgs (F := F)) noTables (pdats m) () defs₀ noVariants noPairs noLevels) :=
  [ .region (poolSeg m),
    .host (hostSeg hostOps1 hostOps1_sub hostOps1_fresh (W1 m)),
    .host (hostSeg hostOps1_1 hostOps1_1_sub hostOps1_1_fresh (W2 m)),
    .host (hostSeg hostOps1_2 hostOps1_2_sub hostOps1_2_fresh (W3 m)),
    .host (hostSeg hostOps1_3 hostOps1_3_sub hostOps1_3_fresh (W4 m)),
    .host (hostSeg hostOps1_4 hostOps1_4_sub hostOps1_4_fresh (W5 m)),
    .region (scaleSeg m) ]

/-- @main is the run of those segments. -/
theorem main_is_segs (c : Dev nD) : main (F := F) c = Pipeline.Seg.run (mainSegs m) := by
  rw [main_chain c, Pipeline.Seg.run_eq_chain]; rfl

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) noTables (pdats m) () cellOf_inj emb₁ defs₀ noVariants noPairs noLevels m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The frame -/

/-- `x` is an input of both regions and written by nothing: it ends as launched. -/
theorem arg0_final (c : Dev nD) : W7 m c (Proc.devRef .tc main_arg0) = m ((c : Thread nD τ).loc main_arg0) :=
  (W7_arr m c 0).trans <| ((dat1 (E1 m) c).arrAt_in 0 rfl _).trans <| (dat1_A (E1 m) c 0).trans <|
    (W6_kept m c main_arg0 (by decide) (by decide) (by decide) (by decide) (by decide)).trans <|
      (W1_arr m c 0).trans <| ((dat0 (E0 m) c).arrAt_in 0 rfl _).trans (dat0_A (E0 m) c 0)
/-- The three small weights are no region's array and written by no host operation. -/
theorem arg1_final (c : Dev nD) : W7 m c (Proc.devRef .tc main_arg1) = m ((c : Thread nD τ).loc main_arg1) :=
  (W7_other m c main_arg1 (by decide)).trans <|
    (W6_kept m c main_arg1 (by decide) (by decide) (by decide) (by decide) (by decide)).trans (W1_other m c main_arg1 (by decide))
theorem arg2_final (c : Dev nD) : W7 m c (Proc.devRef .tc main_arg2) = m ((c : Thread nD τ).loc main_arg2) :=
  (W7_other m c main_arg2 (by decide)).trans <|
    (W6_kept m c main_arg2 (by decide) (by decide) (by decide) (by decide) (by decide)).trans (W1_other m c main_arg2 (by decide))
theorem arg3_final (c : Dev nD) : W7 m c (Proc.devRef .tc main_arg3) = m ((c : Thread nD τ).loc main_arg3) :=
  (W7_other m c main_arg3 (by decide)).trans <|
    (W6_kept m c main_arg3 (by decide) (by decide) (by decide) (by decide) (by decide)).trans (W1_other m c main_arg3 (by decide))

/-- THE FRAME, with the result named: every weakly fair execution terminates, nothing faulting; the output array ends
    at the last boundary's contents and every argument as launched. -/
theorem run_named : θ_run defs (onTc (τ := τ) (main (F := F))) ⟨m, fun _ => 0, ρ⟩ (fun r => ∀ c : Dev nD,
      r.2.mem ((c.tc : Thread nD τ).loc main_v24) = W7 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_unscoped main_v24 (by decide)),
      (h c _ (mem_unscoped main_arg0 (by decide))).trans (arg0_final m c),
      (h c _ (mem_unscoped main_arg1 (by decide))).trans (arg1_final m c),
      (h c _ (mem_unscoped main_arg2 (by decide))).trans (arg2_final m c),
      (h c _ (mem_unscoped main_arg3 (by decide))).trans (arg3_final m c)⟩) (run_all m ρ)

end Cert.KernelIdeal.Hand

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«159028_j13735305412823_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.KI.PoolMath.lean ====
import proofs.«159028_j13735305412823_2_alg».proof.Proof.Gen.KernelIdeal.Skeleton
import proofs.«159028_j13735305412823_2_alg».proof.Proof.LibRegroup
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen

/-! # The pooling body's arithmetic over the extended reals

One step of the pooling kernel adds to each of the 256 running sums the sum of one channel over a block of 32 rows
and 256 columns: first along the rows, then along the columns. -/

/-- The zero row the scratch is reset to. -/
theorem zeroRow_apply (i : S1x1x1x256.Idx) : k0_pay1 (F := Ideal) i = 0 := by
  unfold k0_pay1
  refine (congrFun (shapeCast_self _ _) i).trans ?_
  exact Ideal.ofBits_zero_f32

/-- The sums of a block over its rows and columns, one per channel. -/
def rowSums (X : Vec Ideal S1x32x256x256 .f32) (i : S1x1x1x256.Idx) : EReal :=
  ∑ w : Fin 256, ∑ h : Fin 32, X (ix4 (0 : Fin 1) h w (i 3))

/-- One step: the running sums plus the block's sums. -/
theorem step_apply (X : Vec Ideal S1x32x256x256 .f32) (acc : Vec Ideal S1x1x1x256 .f32) (i : S1x1x1x256.Idx) :
    k0_pay2 X acc i = acc i + rowSums X i := by
  unfold k0_pay2
  refine (congrFun (shapeCast_self _ _) i).trans ?_
  refine congrArg (acc i + ·) ?_
  refine (shapeCast_apply _ _ i (ix2 (0 : Fin 1) (i 3)) (by
    rw [Shape.rowMajor_val_two, Shape.rowMajor_val_four]
    have h0 : (i 0).val < 1 := (i 0).isLt
    have h1 : (i 1).val < 1 := (i 1).isLt
    have h2 : (i 2).val < 1 := (i 2).isLt
    show 0 * 256 + (i 3).val = (((i 0).val * 1 + (i 1).val) * 1 + (i 2).val) * 256 + (i 3).val
    omega)).trans ?_
  refine (Ideal.multiReduction_add_single _ _ _ _ _ _).trans ?_
  unfold rowSums
  refine Finset.sum_congr rfl fun w _ => ?_
  refine (Ideal.multiReduction_add_single _ _ _ _ _ _).trans ?_
  refine Finset.sum_congr rfl fun h _ => ?_
  refine congrArg X (funext fun a => Fin.ext ?_)
  match a with
  | ⟨0, _⟩ => rfl
  | ⟨1, _⟩ => rfl
  | ⟨2, _⟩ => rfl
  | ⟨3, _⟩ => rfl

end Cert.KernelIdeal.Hand

end
-- ==== Proof.KI.PoolValue.lean ====
import proofs.«159028_j13735305412823_2_alg».proof.Proof.KI.ReduceData
import proofs.«159028_j13735305412823_2_alg».proof.Proof.KI.PoolMath

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! # What the pooling region leaves in its output array

Entry `(b, 0, 0, ch)` of the pooled array is the sum of `x (b, ·, ·, ch)` over all rows and columns, collected as eight
row-blocks of 32 rows: the scratch is reset at the first row-block of batch entry `b`, gains one block's sums per
point, and is written out at the eighth. -/

section Region

variable (V : (c : Dev nD) → (b : Ref sig .tc) → Buf (Elt Ideal) ((c : Thread nD τ).loc b))

/-- The pooled array as ONE function of `x`: per batch entry and channel, the sum over the eight row-blocks, the
    columns, and the rows of a block. -/
def pooled (x : S16x256x256x256.Idx → EReal) (i : S16x1x1x256.Idx) : EReal :=
  ∑ s : Fin 8, ∑ w : Fin 256, ∑ h : Fin 32,
    x (ix4 (i 0 : Fin 16) (⟨s.val * 32 + h.val, by have := s.isLt; have := h.isLt; omega⟩ : Fin 256) w (i 3 : Fin 256))

/-- The printed index maps, decided over the grid: point `t` is row-block `t % 8` of batch entry `t / 8`. -/
theorem in_index : ∀ t : Fin cfg0.N, win0_0.index t (0 : Fin 4) = t.val / 8 ∧ win0_0.index t (1 : Fin 4) = t.val % 8
    ∧ win0_0.index t (2 : Fin 4) = 0 ∧ win0_0.index t (3 : Fin 4) = 0 :=
  (by decide +kernel : ∀ t : Fin grid0.N, _)
theorem out_index : ∀ t : Fin cfg0.N, win0_1.index t (0 : Fin 4) = t.val / 8 ∧ win0_1.index t (1 : Fin 4) = 0
    ∧ win0_1.index t (2 : Fin 4) = 0 ∧ win0_1.index t (3 : Fin 4) = 0 :=
  (by decide +kernel : ∀ t : Fin grid0.N, _)

/-- An element of the input's block at point `t` is the element of `x` at the block's offset. -/
theorem blk0_in_apply (c : Dev nD) (t : Fin cfg0.N) (hN : t.val < 128) (h : Fin 32) (w : Fin 256) (ch : Fin 256) :
    blk0 V c 0 t (ix4 (0 : Fin 1) h w ch)
      = V c main_arg0 (ix4 (⟨t.val / 8, by omega⟩ : Fin 16) (⟨t.val % 8 * 32 + h.val, by have := h.isLt; omega⟩ : Fin 256) w ch) := by
  show V c main_arg0 (((cfg0.win 0).blk t).view.emb (ix4 (0 : Fin 1) h w ch)) = _
  refine congrArg (V c main_arg0) (funext fun a => Fin.ext ?_)
  obtain ⟨e0, e1, e2, e3⟩ := in_index t
  match a with
  | ⟨0, _⟩ => show win0_0.index t (0 : Fin 4) * 1 + 1 * 0 = t.val / 8; omega
  | ⟨1, _⟩ => show win0_0.index t (1 : Fin 4) * 32 + 1 * h.val = t.val % 8 * 32 + h.val; omega
  | ⟨2, _⟩ => show win0_0.index t (2 : Fin 4) * 256 + 1 * w.val = w.val; omega
  | ⟨3, _⟩ => show win0_0.index t (3 : Fin 4) * 256 + 1 * ch.val = ch.val; omega

/-- The running sums do not depend on how the position's bound is proved. -/
theorem accAt_congr (c : Dev nD) {n n' : ℕ} (e : n = n') (h : n < cfg0.N) (h' : n' < cfg0.N) :
    accAt V c n h = accAt V c n' h' := by subst e; rfl

/-- THE ACCUMULATION, CLOSED: at the last row-block of batch entry `q` the scratch holds, per channel, the sum of the
    eight blocks' sums. -/
theorem accAt_last (c : Dev nD) (q : ℕ) (hq : 8 * q + 7 < cfg0.N) (i : S1x1x1x256.Idx) :
    accAt V c (8 * q + 7) hq i
      = ∑ s : Fin 8, rowSums (blk0 V c 0 ⟨8 * q + s.val, by have := s.isLt; omega⟩) i :=
  Cert.LibRegroup.run_sum 8
    (fun n h i => accAt V c n h i) (fun n h i => rowSums (blk0 V c 0 ⟨n, h⟩) i)
    (fun n h i hm => by
      show accAt V c n h i = _
      rw [show accAt V c n h = k0_pay2 (blk0 V c 0 ⟨n, h⟩) (k0_pay1 (F := Ideal)) from accAt_first V c ⟨n, h⟩ hm,
        step_apply, zeroRow_apply, zero_add])
    (fun n h i hm => by
      show accAt V c (n + 1) h i = accAt V c n _ i + _
      rw [show accAt V c (n + 1) h = k0_pay2 (blk0 V c 0 ⟨n + 1, h⟩) (accAt V c n (Nat.lt_of_succ_lt h))
        from accAt_next V c ⟨n + 1, h⟩ hm, step_apply])
    q i 7 (by omega) hq

/-- WHAT A LAST ROW-BLOCK WRITES BACK is its block of the pooled array. -/
theorem pool_flushed (c : Dev nD) (t : Fin cfg0.N) (hf : (cfg0.win 1).flush t = true) :
    (dat0 V c).flushed 1 t = ((cfg0.win 1).blk t).view.read (Elt Ideal) (pooled (V c main_arg0)) := by
  have hN : t.val < 128 := lt_of_lt_of_eq t.isLt (show cfg0.N = 128 from N_0)
  have h7 : t.val % 8 = 7 := (flush0_1 t).mp hf
  show (cfg0.win 1).cut (grid0.coords t) ((dat0 V c).after 1 t) = _
  rw [dat0_after_out]
  funext y
  show accAt V c t.val t.isLt y = pooled (V c main_arg0) (((cfg0.win 1).blk t).view.emb y)
  have ht : t.val = 8 * (t.val / 8) + 7 := by omega
  rw [accAt_congr V c ht t.isLt (by omega), accAt_last]
  unfold pooled rowSums
  obtain ⟨o0, o1, o2, o3⟩ := out_index t
  have hy0 : (y 0).val < 1 := (y 0).isLt
  refine Finset.sum_congr rfl fun s _ => Finset.sum_congr rfl fun w _ => Finset.sum_congr rfl fun h _ => ?_
  have hs : s.val < 8 := s.isLt
  refine (blk0_in_apply V c _ (show 8 * (t.val / 8) + s.val < 128 by omega) h w (y 3 : Fin 256)).trans ?_
  refine congrArg (V c main_arg0) (funext fun a => Fin.ext ?_)
  match a with
  | ⟨0, _⟩ =>
    show (8 * (t.val / 8) + s.val) / 8 = win0_1.index t (0 : Fin 4) * 1 + 1 * (y 0).val
    omega
  | ⟨1, _⟩ =>
    show (8 * (t.val / 8) + s.val) % 8 * 32 + h.val = s.val * 32 + h.val
    omega
  | ⟨2, _⟩ => rfl
  | ⟨3, _⟩ =>
    show (y 3).val = win0_1.index t (3 : Fin 4) * 256 + 1 * (y 3).val
    omega

/-- An index of the pooled array is in point `t`'s block iff each coordinate is in the block's range on its axis. -/
theorem pool_mem_blk (t : Fin cfg0.N) (i : S16x1x1x256.Idx) :
    i ∈ ((cfg0.win 1).blk t).view.set ↔ ∀ a : Fin 4, win0_1.index t a * S1x1x1x256.size a ≤ (i a).val ∧ (i a).val < win0_1.index t a * S1x1x1x256.size a + S1x1x1x256.size a := by
  show i ∈ ((View.whole main_v0).slice (win0_1.rect t)).set ↔ _
  rw [View.set_slice_whole, Rect.mem_set_unit]
  exact Iff.rfl

/-- Every entry of the pooled array is written back by the last row-block of its batch entry. -/
theorem pool_cover (i : S16x1x1x256.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 1 := (i 2).isLt
  have hi3 : (i 3).val < 256 := (i 3).isLt
  have hlt : 8 * (i 0).val + 7 < cfg0.N := by rw [show cfg0.N = 128 from N_0]; omega
  refine ⟨⟨8 * (i 0).val + 7, hlt⟩, (flush0_1 _).mpr (by show (8 * (i 0).val + 7) % 8 = 7; omega), ?_⟩
  rw [pool_mem_blk]
  obtain ⟨o0, o1, o2, o3⟩ := out_index ⟨8 * (i 0).val + 7, hlt⟩
  have o0' : win0_1.index ⟨8 * (i 0).val + 7, hlt⟩ (0 : Fin 4) = (i 0).val := by rw [o0]; show (8 * (i 0).val + 7) / 8 = _; omega
  intro a
  match a with
  | ⟨0, _⟩ => show win0_1.index _ (0 : Fin 4) * 1 ≤ (i 0).val ∧ (i 0).val < win0_1.index _ (0 : Fin 4) * 1 + 1; omega
  | ⟨1, _⟩ => show win0_1.index _ (1 : Fin 4) * 1 ≤ (i 1).val ∧ (i 1).val < win0_1.index _ (1 : Fin 4) * 1 + 1; omega
  | ⟨2, _⟩ => show win0_1.index _ (2 : Fin 4) * 1 ≤ (i 2).val ∧ (i 2).val < win0_1.index _ (2 : Fin 4) * 1 + 1; omega
  | ⟨3, _⟩ => show win0_1.index _ (3 : Fin 4) * 256 ≤ (i 3).val ∧ (i 3).val < win0_1.index _ (3 : Fin 4) * 256 + 256; omega

/-- THE POOLED ARRAY after the region. -/
theorem pool_final (c : Dev nD) : (dat0 V c).arrAt 1 cfg0.N = pooled (V c main_arg0) :=
  (dat0 V c).arrAt_eq_of_cover 1 (pooled (V c main_arg0)) (fun t hf => pool_flushed V c t hf) pool_cover

end Region

end Cert.KernelIdeal.Hand

end
-- ==== Proof.KI.ScaleValue.lean ====
import proofs.«159028_j13735305412823_2_alg».proof.Proof.KI.ScaleData
import proofs.«159028_j13735305412823_2_alg».proof.Proof.KI.PoolMath

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! # What the scaling region leaves in its output array

Entry `(b, h, w, ch)` of the result is `x (b, h, w, ch)` times the gate's entry `(b, 0, 0, ch)`: each point multiplies
one block of 32 rows by its batch entry's gate row, and the 128 blocks tile the array. -/

/-- The body's product at an index: the block's element times the gate row's entry for its channel. -/
theorem scale_apply (g : Vec Ideal S1x1x1x256 .f32) (X : Vec Ideal S1x32x256x256 .f32) (y : S1x32x256x256.Idx) :
    k1_pay1 g X y = X y * g (ix4 (0 : Fin 1) (0 : Fin 1) (0 : Fin 1) (y 3 : Fin 256)) := by
  unfold k1_pay1
  show X y * _ = _
  refine congrArg (X y * ·) ?_
  refine (broadcastTo_apply _ _ y (ix4 (0 : Fin 1) (0 : Fin 1) (0 : Fin 1) (y 3 : Fin 256)) (fun a => by
    match a with
    | ⟨0, _⟩ => rfl
    | ⟨1, _⟩ => rfl
    | ⟨2, _⟩ => rfl
    | ⟨3, _⟩ => rfl)).trans ?_
  exact congrFun (shapeCast_self _ _) _

section Region

variable (V : (c : Dev nD) → (b : Ref sig .tc) → Buf (Elt Ideal) ((c : Thread nD τ).loc b))

/-- The result array as ONE function of `x` and the gate. -/
def scaled (x : S16x256x256x256.Idx → EReal) (g : S16x1x1x256.Idx → EReal) (i : S16x256x256x256.Idx) : EReal :=
  x i * g (ix4 (i 0 : Fin 16) (0 : Fin 1) (0 : Fin 1) (i 3 : Fin 256))

/-- The printed index maps, decided over the grid: point `t` is row-block `t % 8` of batch entry `t / 8`, for `x`
    and for the result; the gate's block is its batch entry's row. -/
theorem scale_index : ∀ t : Fin cfg1.N,
    win1_0.index t (0 : Fin 4) = t.val / 8 ∧ win1_0.index t (1 : Fin 4) = t.val % 8 ∧ win1_0.index t (2 : Fin 4) = 0 ∧ win1_0.index t (3 : Fin 4) = 0
    ∧ win1_1.index t (0 : Fin 4) = t.val / 8 ∧ win1_1.index t (1 : Fin 4) = 0 ∧ win1_1.index t (2 : Fin 4) = 0 ∧ win1_1.index t (3 : Fin 4) = 0
    ∧ win1_2.index t (0 : Fin 4) = t.val / 8 ∧ win1_2.index t (1 : Fin 4) = t.val % 8 ∧ win1_2.index t (2 : Fin 4) = 0 ∧ win1_2.index t (3 : Fin 4) = 0 :=
  (by decide +kernel : ∀ t : Fin grid1.N, _)

/-- WHAT POINT `t` WRITES BACK is its block of the result. -/
theorem scale_flushed (c : Dev nD) (t : Fin cfg1.N) :
    (dat1 V c).flushed 2 t = ((cfg1.win 2).blk t).view.read (Elt Ideal) (scaled (V c main_arg0) (V c main_v23)) := by
  show (cfg1.win 2).cut (grid1.coords t) ((dat1 V c).after 2 t) = _
  rw [dat1_after_out]
  funext y
  refine (scale_apply _ _ y).trans ?_
  obtain ⟨a0, a1, a2, a3, g0, g1, g2, g3, r0, r1, r2, r3⟩ := scale_index t
  have hy0 : (y 0).val < 1 := (y 0).isLt
  let xa : S16x256x256x256.Idx → EReal := V c main_arg0
  let ga : S16x1x1x256.Idx → EReal := V c main_v23
  show xa (((cfg1.win 0).blk t).view.emb y) * ga (((cfg1.win 1).blk t).view.emb (ix4 (0 : Fin 1) (0 : Fin 1) (0 : Fin 1) (y 3 : Fin 256)))
    = xa (((cfg1.win 2).blk t).view.emb y)
      * ga (ix4 ((((cfg1.win 2).blk t).view.emb y) 0 : Fin 16) (0 : Fin 1) (0 : Fin 1) ((((cfg1.win 2).blk t).view.emb y) 3 : Fin 256))
  have hx : ((cfg1.win 0).blk t).view.emb y = ((cfg1.win 2).blk t).view.emb y := by
    funext a; apply Fin.ext
    match a with
    | ⟨0, _⟩ => show win1_0.index t (0 : Fin 4) * 1 + 1 * (y 0).val = win1_2.index t (0 : Fin 4) * 1 + 1 * (y 0).val; omega
    | ⟨1, _⟩ => show win1_0.index t (1 : Fin 4) * 32 + 1 * (y 1).val = win1_2.index t (1 : Fin 4) * 32 + 1 * (y 1).val; omega
    | ⟨2, _⟩ => show win1_0.index t (2 : Fin 4) * 256 + 1 * (y 2).val = win1_2.index t (2 : Fin 4) * 256 + 1 * (y 2).val; omega
    | ⟨3, _⟩ => show win1_0.index t (3 : Fin 4) * 256 + 1 * (y 3).val = win1_2.index t (3 : Fin 4) * 256 + 1 * (y 3).val; omega
  have hg : ((cfg1.win 1).blk t).view.emb (ix4 (0 : Fin 1) (0 : Fin 1) (0 : Fin 1) (y 3 : Fin 256))
      = ix4 ((((cfg1.win 2).blk t).view.emb y) 0 : Fin 16) (0 : Fin 1) (0 : Fin 1) ((((cfg1.win 2).blk t).view.emb y) 3 : Fin 256) := by
    funext a; apply Fin.ext
    match a with
    | ⟨0, _⟩ => show win1_1.index t (0 : Fin 4) * 1 + 1 * 0 = win1_2.index t (0 : Fin 4) * 1 + 1 * (y 0).val; omega
    | ⟨1, _⟩ => show win1_1.index t (1 : Fin 4) * 1 + 1 * 0 = 0; omega
    | ⟨2, _⟩ => show win1_1.index t (2 : Fin 4) * 1 + 1 * 0 = 0; omega
    | ⟨3, _⟩ => show win1_1.index t (3 : Fin 4) * 256 + 1 * (y 3).val = win1_2.index t (3 : Fin 4) * 256 + 1 * (y 3).val; omega
  rw [hx, hg]
  rfl

/-- An index of the result is in point `t`'s block iff each coordinate is in the block's range on its axis. -/
theorem scale_mem_blk (t : Fin cfg1.N) (i : S16x256x256x256.Idx) :
    i ∈ ((cfg1.win 2).blk t).view.set ↔ ∀ a : Fin 4, win1_2.index t a * S1x32x256x256.size a ≤ (i a).val ∧ (i a).val < win1_2.index t a * S1x32x256x256.size a + S1x32x256x256.size a := by
  show i ∈ ((View.whole main_v24).slice (win1_2.rect t)).set ↔ _
  rw [View.set_slice_whole, Rect.mem_set_unit]
  exact Iff.rfl

/-- Every entry of the result is written back by the point of its batch entry and row-block. -/
theorem scale_cover (i : S16x256x256x256.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 256 := (i 2).isLt
  have hi3 : (i 3).val < 256 := (i 3).isLt
  have hlt : 8 * (i 0).val + (i 1).val / 32 < cfg1.N := by rw [show cfg1.N = 128 from N_1]; omega
  refine ⟨⟨8 * (i 0).val + (i 1).val / 32, hlt⟩, flush1_2 _, ?_⟩
  rw [scale_mem_blk]
  obtain ⟨-, -, -, -, -, -, -, -, r0, r1, r2, r3⟩ := scale_index ⟨8 * (i 0).val + (i 1).val / 32, hlt⟩
  have r0' : win1_2.index ⟨8 * (i 0).val + (i 1).val / 32, hlt⟩ (0 : Fin 4) = (i 0).val := by
    rw [r0]; show (8 * (i 0).val + (i 1).val / 32) / 8 = _; omega
  have r1' : win1_2.index ⟨8 * (i 0).val + (i 1).val / 32, hlt⟩ (1 : Fin 4) = (i 1).val / 32 := by
    rw [r1]; show (8 * (i 0).val + (i 1).val / 32) % 8 = _; omega
  intro a
  match a with
  | ⟨0, _⟩ => show win1_2.index _ (0 : Fin 4) * 1 ≤ (i 0).val ∧ (i 0).val < win1_2.index _ (0 : Fin 4) * 1 + 1; omega
  | ⟨1, _⟩ => show win1_2.index _ (1 : Fin 4) * 32 ≤ (i 1).val ∧ (i 1).val < win1_2.index _ (1 : Fin 4) * 32 + 32; omega
  | ⟨2, _⟩ => show win1_2.index _ (2 : Fin 4) * 256 ≤ (i 2).val ∧ (i 2).val < win1_2.index _ (2 : Fin 4) * 256 + 256; omega
  | ⟨3, _⟩ => show win1_2.index _ (3 : Fin 4) * 256 ≤ (i 3).val ∧ (i 3).val < win1_2.index _ (3 : Fin 4) * 256 + 256; omega

/-- THE RESULT ARRAY after the region. -/
theorem scale_final (c : Dev nD) : (dat1 V c).arrAt 2 cfg1.N = scaled (V c main_arg0) (V c main_v23) :=
  (dat1 V c).arrAt_eq_of_cover 2 (scaled (V c main_arg0) (V c main_v23)) (fun t _ => scale_flushed V c t) scale_cover

end Region

end Cert.KernelIdeal.Hand

end
-- ==== Proof.RefSpec.lean ====
import proofs.«159028_j13735305412823_2_alg».proof.Proof.Gen.ReferenceIdeal.Read
import proofs.«159028_j13735305412823_2_alg».proof.Proof.LibSumBlocks
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.Spec

open Idealize.ShloMosaic Idealize.ShloMosaic.ValueIdx
open Cert.ReferenceIdeal Cert.ReferenceIdeal.Gen

/-! # The reference, read over the extended reals

The reference pools `x` over its rows and columns in one reduction and divides by 65536 (the mean), runs the mean through
two small matrix products with a leaky ReLU between them, scales by `relu (1 + w_mult)`, takes the logistic function
(the gate), and multiplies `x` by the gate repeated over rows and columns. -/

/-! ## The two literals of the mean -/

/-- `65536.0` denotes the real 65536. -/
theorem ofBits_65536 : Ideal.ofBits .f32 0x47800000#32 = ((65536 : ℝ) : EReal) := by
  simp [Ideal.ofBits, Ideal.ieee, -EReal.coe_mul]; norm_num

/-- `1.52587890625e-05` is the power of two 2⁻¹⁶, the exact reciprocal of 65536. -/
theorem ofBits_inv65536 : Ideal.ofBits .f32 0x37800000#32 = ((1 / 65536 : ℝ) : EReal) := by
  simp [Ideal.ofBits, Ideal.ieee, -EReal.coe_mul]; norm_num

/-- So multiplying by the one is dividing by the other, on every extended real. -/
theorem mul_inv_eq_div (a : EReal) :
    a * Ideal.ofBits .f32 0x37800000#32 = Ideal.div a (Ideal.ofBits .f32 0x47800000#32) := by
  rw [ofBits_65536, ofBits_inv65536, Ideal.div_coe (by norm_num : (65536 : ℝ) ≠ 0)]

/-! ## The pooling reduction -/

/-- A sum over the indices of `x` that agree with `(b, ch)` off the rows and columns is the double sum over rows and
    columns. -/
theorem sum_rows_cols (h : S16x256x256x256.ReducesTo [1, 2] S16x256) (x : S16x256x256x256.Idx → EReal) (j : S16x256.Idx) :
    ∑ i ∈ Finset.univ.filter (fun i => h.drop i = j), x i
      = ∑ r : Fin 256, ∑ w : Fin 256, x (ix4 (j 0 : Fin 16) r w (j 1 : Fin 256)) := by
  rw [← Fintype.sum_prod_type' (f := fun (r : Fin 256) (w : Fin 256) => x (ix4 (j 0 : Fin 16) r w (j 1 : Fin 256)))]
  refine Finset.sum_nbij' (fun i => ((i 1 : Fin 256), (i 2 : Fin 256))) (fun p => ix4 (j 0 : Fin 16) p.1 p.2 (j 1 : Fin 256))
    (fun _ _ => Finset.mem_univ _) ?_ ?_ (fun _ _ => rfl) ?_
  · intro p _
    refine Finset.mem_filter.mpr ⟨Finset.mem_univ _, funext fun b => Fin.ext ?_⟩
    match b with
    | ⟨0, _⟩ => exact h.drop_apply_val_of_eq _ (0 : Fin 2) (0 : Fin 4)
    | ⟨1, _⟩ => exact h.drop_apply_val_of_eq _ (1 : Fin 2) (3 : Fin 4)
  · intro i hi
    have hd := (Finset.mem_filter.mp hi).2
    have e0 : (j 0).val = (i 0).val := by rw [← hd]; exact h.drop_apply_val_of_eq i (0 : Fin 2) (0 : Fin 4)
    have e1 : (j 1).val = (i 3).val := by rw [← hd]; exact h.drop_apply_val_of_eq i (1 : Fin 2) (3 : Fin 4)
    funext a; apply Fin.ext
    match a with
    | ⟨0, _⟩ => exact e0
    | ⟨1, _⟩ => rfl
    | ⟨2, _⟩ => rfl
    | ⟨3, _⟩ => exact e1
  · intro i hi
    have hd := (Finset.mem_filter.mp hi).2
    have e0 : (j 0).val = (i 0).val := by rw [← hd]; exact h.drop_apply_val_of_eq i (0 : Fin 2) (0 : Fin 4)
    have e1 : (j 1).val = (i 3).val := by rw [← hd]; exact h.drop_apply_val_of_eq i (1 : Fin 2) (3 : Fin 4)
    refine congrArg x (funext fun a => Fin.ext ?_)
    match a with
    | ⟨0, _⟩ => exact e0.symm
    | ⟨1, _⟩ => rfl
    | ⟨2, _⟩ => rfl
    | ⟨3, _⟩ => exact e1.symm

/-- The sum over 256 rows, as eight blocks of 32 rows. -/
theorem sum_rows_blocks (f : Fin 256 → EReal) :
    ∑ r : Fin 256, f r
      = ∑ s : Fin 8, ∑ h : Fin 32, f ⟨s.val * 32 + h.val, by have := s.isLt; have := h.isLt; omega⟩ := by
  let g : ℕ → EReal := fun n => if hn : n < 256 then f ⟨n, hn⟩ else 0
  have e1 : ∑ r : Fin 256, f r = ∑ k : Fin (8 * 32), g k.val :=
    Finset.sum_congr rfl fun r _ => by
      show f r = dite (r.val < 256) (fun hn => f ⟨r.val, hn⟩) (fun _ => 0)
      rw [dif_pos r.isLt]
  rw [e1, Cert.LibSumBlocks.sum_fin_blocks g 32 8, Finset.sum_range]
  refine Finset.sum_congr rfl fun s _ => ?_
  rw [Finset.sum_range]
  refine Finset.sum_congr rfl fun h _ => ?_
  show dite (s.val * 32 + h.val < 256) (fun hn => f ⟨s.val * 32 + h.val, hn⟩) (fun _ => 0) = _
  rw [dif_pos (by have := s.isLt; have := h.isLt; omega)]

/-! ## The mean, and the gate from the mean -/

/-- The mean: the pooled sums divided by 65536. -/
def meanOf (x : FVec Ideal S16x256x256x256 .f32) : FVec Ideal S16x256 .f32 :=
  Host.divf (F := Ideal) (Host.reduceAdd (F := Ideal) x (constant (F := Ideal) S_ .f32 0x00000000#32) reducesTo_S16x256x256x256_S16x256_d1_2 h_S_) (broadcastInDim S16x256 ![] bcast_S_S16x256 (constant (F := Ideal) S_ .f32 0x47800000#32))

/-- The mean at `(b, ch)`: the sum over eight row-blocks, the columns, and the rows of a block, divided by 65536. -/
theorem meanOf_apply (x : FVec Ideal S16x256x256x256 .f32) (j : S16x256.Idx) :
    meanOf x j = Ideal.div
      (∑ s : Fin 8, ∑ w : Fin 256, ∑ h : Fin 32,
        x (ix4 (j 0 : Fin 16) (⟨s.val * 32 + h.val, by have := s.isLt; have := h.isLt; omega⟩ : Fin 256) w (j 1 : Fin 256)))
      (Ideal.ofBits .f32 0x47800000#32) := by
  show Ideal.div (Ideal.ofBits .f32 0x00000000#32 + ∑ i ∈ Finset.univ.filter (fun i => (reducesTo_S16x256x256x256_S16x256_d1_2).drop i = j), x i) (Ideal.ofBits .f32 0x47800000#32) = _
  rw [Ideal.ofBits_zero_f32, zero_add, sum_rows_cols, sum_rows_blocks]
  refine congrArg (Ideal.div · _) (Finset.sum_congr rfl fun s _ => ?_)
  exact Finset.sum_comm

/-- The gate, from the mean and the three small weights. -/
def gateOf (y : FVec Ideal S16x256 .f32) (w0 : FVec Ideal S256x64 .f32) (w1 : FVec Ideal S64x256 .f32) (wm : FVec Ideal S256 .f32) :
    FVec Ideal S16x256 .f32 :=
  Host.divf (F := Ideal) (broadcastInDim S16x256 ![] bcast_S_S16x256 (constant (F := Ideal) S_ .f32 0x3F800000#32)) (addf (broadcastInDim S16x256 ![] bcast_S_S16x256 (constant (F := Ideal) S_ .f32 0x3F800000#32)) (Host.exp (F := Ideal) (Host.negf (F := Ideal) (mulf (broadcastInDim S16x256 ![0, 1] bcast_S1x256_S16x256_0_1 (broadcastInDim S1x256 ![1] bcast_S256_S1x256_1 (maximumf (addf (broadcastInDim S256 ![] bcast_S_S256 (constant (F := Ideal) S_ .f32 0x3F800000#32)) wm) (broadcastInDim S256 ![] bcast_S_S256 (constant (F := Ideal) S_ .f32 0x00000000#32))))) (Host.dotGeneral (F := Ideal) dot_S16x64_S64x256_S16x256_1_0_0_1_n_n none (select (cmpf .oge (Host.dotGeneral (F := Ideal) dot_S16x256_S256x64_S16x64_1_0_0_1_n_n none y w0) (broadcastInDim S16x64 ![] bcast_S_S16x64 (constant (F := Ideal) S_ .f32 0x00000000#32))) (Host.dotGeneral (F := Ideal) dot_S16x256_S256x64_S16x64_1_0_0_1_n_n none y w0) (mulf (broadcastInDim S16x64 ![] bcast_S_S16x64 (constant (F := Ideal) S_ .f32 0x3DCCCCCD#32)) (Host.dotGeneral (F := Ideal) dot_S16x256_S256x64_S16x64_1_0_0_1_n_n none y w0))) w1)))))

/-- The reference's result, index by index: `x` times the gate of its batch entry and channel. -/
theorem result_apply (x : FVec Ideal S16x256x256x256 .f32) (G : FVec Ideal S16x256 .f32) (i : S16x256x256x256.Idx) :
    mulf x (broadcastInDim S16x256x256x256 ![0, 1, 2, 3] bcast_S16x1x1x256_S16x256x256x256_0_1_2_3 (broadcastInDim S16x1x1x256 ![0, 3] bcast_S16x256_S16x1x1x256_0_3 G)) i
      = x i * G (ix2 (i 0 : Fin 16) (i 3 : Fin 256)) := by
  show x i * _ = _
  refine congrArg (x i * ·) ?_
  refine (broadcastInDim_apply _ _ _ i (ix4 (i 0 : Fin 16) (0 : Fin 1) (0 : Fin 1) (i 3 : Fin 256)) (fun a => by
    match a with
    | ⟨0, _⟩ => rfl
    | ⟨1, _⟩ => rfl
    | ⟨2, _⟩ => rfl
    | ⟨3, _⟩ => rfl)).trans ?_
  exact broadcastInDim_apply _ _ _ _ (ix2 (i 0 : Fin 16) (i 3 : Fin 256)) (fun a => by
    match a with
    | ⟨0, _⟩ => rfl
    | ⟨1, _⟩ => rfl)

end Cert.ReferenceIdeal.Spec

end
-- ==== Proof.KI.Bridge.lean ====
import proofs.«159028_j13735305412823_2_alg».proof.Proof.KI.Run
import proofs.«159028_j13735305412823_2_alg».proof.Proof.KI.PoolValue
import proofs.«159028_j13735305412823_2_alg».proof.Proof.KI.ScaleValue
import proofs.«159028_j13735305412823_2_alg».proof.Proof.RefSpec

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen
open Cert.ReferenceIdeal.Spec (gateOf meanOf)

/-! # The kernel's result is the reference's

Over the extended reals both programs compute `x · gate`, the gate a function of the mean of `x` over rows and columns
and of the three small weights. The two means differ only in arrangement: the kernel adds eight row-blocks' sums and
multiplies by 2⁻¹⁶, the reference sums once and divides by 65536 — the same extended real, since reordering a finite
sum needs no finiteness and 2⁻¹⁶ is exactly the reciprocal of 65536. From the mean on, the two programs apply the same
operations. -/

/-! ## The pure statement -/

/-- The kernel's mean — the pooled sums, reshaped, times 2⁻¹⁶ — is the reference's. -/
theorem mean_eq (x : FVec Ideal S16x256x256x256 .f32) :
    mulf (shapeCast S16x256 (pooled x) shapeCasts_S16x1x1x256_S16x256)
        (broadcastInDim S16x256 ![] bcast_S_S16x256 (constant (F := Ideal) S_ .f32 0x37800000#32))
      = meanOf x := by
  funext j
  refine Eq.trans ?_ (Cert.ReferenceIdeal.Spec.meanOf_apply x j).symm
  show shapeCast S16x256 (pooled x) shapeCasts_S16x1x1x256_S16x256 j * Ideal.ofBits .f32 0x37800000#32 = _
  rw [Cert.ReferenceIdeal.Spec.mul_inv_eq_div]
  refine congrArg (Ideal.div · _) ?_
  refine (shapeCast_apply _ _ j (ix4 (j 0 : Fin 16) (0 : Fin 1) (0 : Fin 1) (j 1 : Fin 256)) (by
    rw [Shape.rowMajor_val_four, Shape.rowMajor_val_two]
    show (((j 0).val * 1 + 0) * 1 + 0) * 256 + (j 1).val = (j 0).val * 256 + (j 1).val
    omega)).trans ?_
  rfl

/-- The gate, reshaped to one row per batch entry, read at an entry. -/
theorem gate4_apply (G : FVec Ideal S16x256 .f32) (b : Fin 16) (ch : Fin 256) :
    shapeCast S16x1x1x256 G shapeCasts_S16x256_S16x1x1x256 (ix4 b (0 : Fin 1) (0 : Fin 1) ch) = G (ix2 b ch) :=
  shapeCast_apply _ _ _ (ix2 b ch) (by
    rw [Shape.rowMajor_val_four, Shape.rowMajor_val_two]
    show b.val * 256 + ch.val = ((b.val * 1 + 0) * 1 + 0) * 256 + ch.val
    omega)

/-- The kernel's result array, as a function of the arguments, is the reference's. -/
theorem kernel_eq_reference (x : FVec Ideal S16x256x256x256 .f32) (w0 : FVec Ideal S256x64 .f32) (w1 : FVec Ideal S64x256 .f32)
    (wm : FVec Ideal S256 .f32) :
    scaled x (shapeCast S16x1x1x256 (gateOf
        (mulf (shapeCast S16x256 (pooled x) shapeCasts_S16x1x1x256_S16x256)
          (broadcastInDim S16x256 ![] bcast_S_S16x256 (constant (F := Ideal) S_ .f32 0x37800000#32))) w0 w1 wm)
        shapeCasts_S16x256_S16x1x1x256)
      = mulf x (broadcastInDim S16x256x256x256 ![0, 1, 2, 3] Cert.ReferenceIdeal.Facts₀.bcast_S16x1x1x256_S16x256x256x256_0_1_2_3
          (broadcastInDim S16x1x1x256 ![0, 3] Cert.ReferenceIdeal.Facts₀.bcast_S16x256_S16x1x1x256_0_3 (gateOf (meanOf x) w0 w1 wm))) := by
  rw [mean_eq]
  funext i
  rw [Cert.ReferenceIdeal.Spec.result_apply]
  unfold scaled
  exact congrArg (x i * ·) (gate4_apply _ _ _)

/-! ## The buffers at the boundaries -/

variable (m : (ℓ : Loc nD τ sig) → Buf (Elt Ideal) ℓ)

/-- `x` reaches the scaling region as launched: no host stretch writes it and the pooling region only reads it. -/
theorem x_kept (c : Dev nD) : W6 m c (Proc.devRef .tc main_arg0) = m ((c : Thread nD τ).loc main_arg0) :=
  (W6_kept m c main_arg0 (by decide) (by decide) (by decide) (by decide) (by decide)).trans <|
    (W1_arr m c 0).trans <| ((dat0 (E0 m) c).arrAt_in 0 rfl _).trans (dat0_A (E0 m) c 0)

/-- After the pooling region its output holds the pooled sums of `x`; the small weights are as launched. -/
theorem pooled_buffer (c : Dev nD) :
    W1 m c (Proc.devRef .tc main_v0) = pooled (m ((c : Thread nD τ).loc main_arg0)) :=
  (W1_arr m c 1).trans (pool_final (E0 m) c)
theorem w0_kept (c : Dev nD) : W1 m c (Proc.devRef .tc main_arg1) = m ((c : Thread nD τ).loc main_arg1) :=
  W1_other m c main_arg1 (by decide)
theorem w1_kept (c : Dev nD) : W1 m c (Proc.devRef .tc main_arg2) = m ((c : Thread nD τ).loc main_arg2) :=
  W1_other m c main_arg2 (by decide)
theorem wm_kept (c : Dev nD) : W1 m c (Proc.devRef .tc main_arg3) = m ((c : Thread nD τ).loc main_arg3) :=
  W1_other m c main_arg3 (by decide)

set_option maxHeartbeats 4000000 in
/-- What the host stretches leave in the gate's buffer: the gate of the kernel's mean, reshaped. -/
theorem gate_buffer (c : Dev nD) :
    W6 m c (Proc.devRef .tc main_v23)
      = shapeCast S16x1x1x256 (gateOf
          (mulf (shapeCast S16x256 (W1 m c (Proc.devRef .tc main_v0)) shapeCasts_S16x1x1x256_S16x256)
            (broadcastInDim S16x256 ![] bcast_S_S16x256 (constant (F := Ideal) S_ .f32 0x37800000#32)))
          (W1 m c (Proc.devRef .tc main_arg1)) (W1 m c (Proc.devRef .tc main_arg2)) (W1 m c (Proc.devRef .tc main_arg3)))
        shapeCasts_S16x256_S16x1x1x256 := by
  show StableHlo.after hostOps1_4 (StableHlo.after hostOps1_3 (StableHlo.after hostOps1_2 (StableHlo.after hostOps1_1 (StableHlo.after hostOps1 (W1 m c))))) (Proc.devRef .tc main_v23) = _
  after_results_simp
  rfl

/-- THE RESULT: after the run the output array holds the reference's term of the launch arguments. -/
theorem result_value (c : Dev nD) :
    W7 m c (Proc.devRef .tc main_v24)
      = mulf (m ((c : Thread nD τ).loc main_arg0)) (broadcastInDim S16x256x256x256 ![0, 1, 2, 3] Cert.ReferenceIdeal.Facts₀.bcast_S16x1x1x256_S16x256x256x256_0_1_2_3
          (broadcastInDim S16x1x1x256 ![0, 3] Cert.ReferenceIdeal.Facts₀.bcast_S16x256_S16x1x1x256_0_3
            (gateOf (meanOf (m ((c : Thread nD τ).loc main_arg0))) (m ((c : Thread nD τ).loc main_arg1)) (m ((c : Thread nD τ).loc main_arg2)) (m ((c : Thread nD τ).loc main_arg3))))) := by
  refine (W7_arr m c 2).trans ?_
  refine (scale_final (E1 m) c).trans ?_
  show scaled (W6 m c (Proc.devRef .tc main_arg0)) (W6 m c (Proc.devRef .tc main_v23)) = _
  rw [x_kept, gate_buffer, pooled_buffer, w0_kept, w1_kept, wm_kept]
  exact kernel_eq_reference _ _ _ _

end Cert.KernelIdeal.Hand

end
-- ==== Proof.lean ====
/- The proof of `Cert.Claim`: the pooled-gate scaling kernel against its jnp reference.

   The kernel is two TensorCore regions with host operations between them. The first streams `x` once, keeping per
   batch entry a row of 256 running sums in scratch across eight row-blocks and writing the row out at the eighth; the
   host turns the pooled sums into a gate (mean, two small products with a leaky ReLU between, a channel scale, the
   logistic function); the second streams `x` again and multiplies each block by its batch entry's gate row.

   Frames (both programs): the run of @main as seven segments, each region entered holding every unscoped buffer at its
   boundary's contents (Proof/K/Run.lean at the word level, Proof/KI/Run.lean at the extended reals), over the body
   triples of Proof/*/ReduceBody.lean, ScaleBody.lean and the per-point data of ReduceData.lean, ScaleData.lean. The
   reference's frame is its generated run with the result dropped.

   Equivalence over the extended reals: the pooled array is one function of `x` (Proof/KI/PoolValue.lean: the running
   sum of a run of eight points, and the blocks covering the array), the result array is `x` times the gate's buffer
   (Proof/KI/ScaleValue.lean), and the kernel's mean is the reference's (Proof/KI/Bridge.lean: a finite sum regrouped
   into eight blocks, and 2⁻¹⁶ the exact reciprocal of 65536); from the mean on both programs apply the same operations
   (Proof/RefSpec.lean). The idealization rewrote nothing, so there is nothing to preserve. -/
import proofs.«159028_j13735305412823_2_alg».proof.Defs
import proofs.«159028_j13735305412823_2_alg».proof.Proof.K.Run
import proofs.«159028_j13735305412823_2_alg».proof.Proof.KI.Bridge
import proofs.«159028_j13735305412823_2_alg».proof.Proof.RefSpec
import proofs.«159028_j13735305412823_2_alg».proof.Proof.Gen.Kernel
import proofs.«159028_j13735305412823_2_alg».proof.Proof.Gen.KernelIdeal
import proofs.«159028_j13735305412823_2_alg».proof.Proof.Gen.ReferenceIdeal
import proofs.«159028_j13735305412823_2_alg».proof.Proof.Gen.ReferenceIdeal.Run
import proofs.«159028_j13735305412823_2_alg».proof.Proof.Gen.Pre_finite_inputs
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_named (F := Bits) m ρ)

/-- So does the idealized kernel. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_named (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the same result array: the kernel's
    last boundary holds the reference's term of the arguments (`result_value`), and the reference's run ends at that
    term. Neither side needs the arguments finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W7 m c (Proc.devRef .tc Cert.KernelIdeal.main_v24),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.KernelIdeal.Hand.result_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
